-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16 .f32) (main_arg6 : FVec F S16x8 .f32) (main_arg7 : FVec F S8 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg6
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x16 .f32) (main_arg3 : FVec F S16 .f32) (main_arg4 : FVec F S16x16 .f32) (main_arg5 : FVec F S16 .f32) (main_arg6 : FVec F S16x8 .f32) (main_arg7 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S5000x256 : Shape := ⟨2, ![5000, 256]⟩
abbrev S5000x16 : Shape := ⟨2, ![5000, 16]⟩
abbrev S3200000x16 : Shape := ⟨2, ![3200000, 16]⟩
abbrev S1x16 : Shape := ⟨2, ![1, 16]⟩
abbrev S100000x1 : Shape := ⟨2, ![100000, 1]⟩
abbrev S5000x1 : Shape := ⟨2, ![5000, 1]⟩
abbrev S100000x8 : Shape := ⟨2, ![100000, 8]⟩
abbrev S5000x8 : Shape := ⟨2, ![5000, 8]⟩
abbrev S3200000x8 : Shape := ⟨2, ![3200000, 8]⟩
abbrev S1x8 : Shape := ⟨2, ![1, 8]⟩
abbrev S5000 : Shape := ⟨1, ![5000]⟩

abbrev nBuf : Space → Nat
  | .hbm => 100
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000, .f32⟩
  | .hbm, ⟨42, _⟩ => ⟨S100000x16, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x16, .f32⟩
  | .hbm, ⟨52, _⟩ => ⟨S3200000x1, .f32⟩
  | .hbm, ⟨53, _⟩ => ⟨S3200000x16, .f32⟩
  | .hbm, ⟨54, _⟩ => ⟨S3200000x16, .f32⟩
  | .hbm, ⟨55, _⟩ => ⟨S_, .f32⟩
  | .hbm, ⟨56, _⟩ => ⟨S100000x16, .f32⟩
  | .hbm, ⟨57, _⟩ => ⟨S3200000x1, .i32⟩
  | .hbm, ⟨58, _⟩ => ⟨S100000x16, .f32⟩
  | .hbm, ⟨59, _⟩ => ⟨S1x16, .f32⟩
  | .hbm, ⟨60, _⟩ => ⟨S100000x1, .f32⟩
  | .hbm, ⟨61, _⟩ => ⟨S100000x16, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x16, .f32⟩
  | .hbm, ⟨71, _⟩ => ⟨S3200000x1, .f32⟩
  | .hbm, ⟨72, _⟩ => ⟨S3200000x16, .f32⟩
  | .hbm, ⟨73, _⟩ => ⟨S3200000x16, .f32⟩
  | .hbm, ⟨74, _⟩ => ⟨S_, .f32⟩
  | .hbm, ⟨75, _⟩ => ⟨S100000x16, .f32⟩
  | .hbm, ⟨76, _⟩ => ⟨S3200000x1, .i32⟩
  | .hbm, ⟨77, _⟩ => ⟨S100000x16, .f32⟩
  | .hbm, ⟨78, _⟩ => ⟨S1x16, .f32⟩
  | .hbm, ⟨79, _⟩ => ⟨S100000x1, .f32⟩
  | .hbm, ⟨80, _⟩ => ⟨S100000x8, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x8, .f32⟩
  | .hbm, ⟨90, _⟩ => ⟨S3200000x1, .f32⟩
  | .hbm, ⟨91, _⟩ => ⟨S3200000x8, .f32⟩
  | .hbm, ⟨92, _⟩ => ⟨S3200000x8, .f32⟩
  | .hbm, ⟨93, _⟩ => ⟨S_, .f32⟩
  | .hbm, ⟨94, _⟩ => ⟨S100000x8, .f32⟩
  | .hbm, ⟨95, _⟩ => ⟨S3200000x1, .i32⟩
  | .hbm, ⟨96, _⟩ => ⟨S100000x8, .f32⟩
  | .hbm, ⟨97, _⟩ => ⟨S1x8, .f32⟩
  | .hbm, ⟨98, _⟩ => ⟨S100000x1, .f32⟩
  | .hbm, ⟨99, _⟩ => ⟨S100000x8, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x1, .f32⟩
  | .local _ .vmem, ⟨20, _⟩ => ⟨S5000x1, .f32⟩
  | .local _ .vmem, ⟨21, _⟩ => ⟨S1x16, .f32⟩
  | .local _ .vmem, ⟨22, _⟩ => ⟨S16x8, .f32⟩
  | .local _ .vmem, ⟨23, _⟩ => ⟨S5000x8, .f32⟩
  | .local _ .vmem, ⟨24, _⟩ => ⟨S5000x8, .f32⟩
  | .local _ .vmem, ⟨25, _⟩ => ⟨S5000x8, .f32⟩
  | .local _ .vmem, ⟨26, _⟩ => ⟨S5000x8, .f32⟩
  | .local _ .vmem, ⟨27, _⟩ => ⟨S5000x8, .f32⟩
  | .local _ .vmem, ⟨28, _⟩ => ⟨S5000x8, .f32⟩
  | .local _ .vmem, ⟨29, _⟩ => ⟨S5000x1, .f32⟩
  | .local _ .vmem, ⟨30, _⟩ => ⟨S5000x1, .f32⟩
  | .local _ .vmem, ⟨31, _⟩ => ⟨S1x8, .f32⟩
  | .local _ .vmem, ⟨32, _⟩ => ⟨S5000x8, .f32⟩
  | .local _ .vmem, ⟨33, _⟩ => ⟨S5000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S100000_S100000x1 : S100000.ShapeCasts S100000x1
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S16x8_S16x8_0_0 : ∀ a, (![0, 0] : Fin 2 → Nat) a + S16x8.size a ≤ S16x8.size a
  h_S16x8 : 0 < S16x8.numel
  inb_S5000x8_S5000x8_0_0 : ∀ a, (![0, 0] : Fin 2 → Nat) a + S5000x8.size a ≤ S5000x8.size a
  h_S5000x8 : 0 < S5000x8.numel
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  broadcasts_S5000x1_S5000x8 : S5000x1.Broadcasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x256_S256x16_S5000x16_1_0_0_1_n_n_wf : DotDims.WF S5000x256 S256x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x8_S5000x8_1_0_0_1_n_n_wf : DotDims.WF S5000x16 S16x8 S5000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x8.size a ≤ S16x8.size a
  hwx2_4 : ∀ i : grid2.Coords, EltTy.bits .f32 = 32 ∨ (Rect.block (s := S16x8) S16x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x8.size a ≤ S100000x8.size a
  hwx2_5 : ∀ i : grid2.Coords, EltTy.bits .f32 = 32 ∨ (Rect.block (s := S100000x8) S5000x8.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x8.size a ≤ S100000x8.size a
  hwx3_1 : ∀ i : grid3.Coords, EltTy.bits .f32 = 32 ∨ (Rect.block (s := S100000x8) S5000x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x8.size a ≤ S100000x8.size a
  hwx3_4 : ∀ i : grid3.Coords, EltTy.bits .f32 = 32 ∨ (Rect.block (s := S100000x8) S5000x8.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S16x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S5000x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x8 : Shape := ⟨2, ![100000, 8]⟩
abbrev S3200000x8 : Shape := ⟨2, ![3200000, 8]⟩
abbrev S1x8 : Shape := ⟨2, ![1, 8]⟩

abbrev nBuf : Space → Nat
  | .hbm => 135
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x16, .f32⟩
  | 5 => ⟨S16, .f32⟩
  | 6 => ⟨S16x8, .f32⟩
  | 7 => ⟨S8, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S3200000, .f32⟩
  | 41 => ⟨S100000, .f32⟩
  | 42 => ⟨S100000x16, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x16, .f32⟩
  | 52 => ⟨S3200000x1, .f32⟩
  | 53 => ⟨S3200000x16, .f32⟩
  | 54 => ⟨S3200000x16, .f32⟩
  | 55 => ⟨S_, .f32⟩
  | 56 => ⟨S100000x16, .f32⟩
  | 57 => ⟨S3200000x1, .i32⟩
  | 58 => ⟨S100000x16, .f32⟩
  | 59 => ⟨S100000x1, .f32⟩
  | 60 => ⟨S100000x16, .f32⟩
  | 61 => ⟨S100000x16, .f32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x16, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x16, .f32⟩
  | 79 => ⟨S3200000x1, .f32⟩
  | 80 => ⟨S3200000x16, .f32⟩
  | 81 => ⟨S3200000x16, .f32⟩
  | 82 => ⟨S_, .f32⟩
  | 83 => ⟨S100000x16, .f32⟩
  | 84 => ⟨S3200000x1, .i32⟩
  | 85 => ⟨S100000x16, .f32⟩
  | 86 => ⟨S100000x1, .f32⟩
  | 87 => ⟨S100000x16, .f32⟩
  | 88 => ⟨S100000x16, .f32⟩
  | 89 => ⟨S100000x16, .f32⟩
  | 90 => ⟨S1x16, .f32⟩
  | 91 => ⟨S100000x16, .f32⟩
  | 92 => ⟨S100000x16, .f32⟩
  | 93 => ⟨S_, .f32⟩
  | 94 => ⟨S100000x16, .f32⟩
  | 95 => ⟨S100000x16, .f32⟩
  | 96 => ⟨S100000x8, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x8, .f32⟩
  | 106 => ⟨S3200000x1, .f32⟩
  | 107 => ⟨S3200000x8, .f32⟩
  | 108 => ⟨S3200000x8, .f32⟩
  | 109 => ⟨S_, .f32⟩
  | 110 => ⟨S100000x8, .f32⟩
  | 111 => ⟨S3200000x1, .i32⟩
  | 112 => ⟨S100000x8, .f32⟩
  | 113 => ⟨S100000x1, .f32⟩
  | 114 => ⟨S100000x8, .f32⟩
  | 115 => ⟨S100000x8, .f32⟩
  | 116 => ⟨S100000x8, .f32⟩
  | 117 => ⟨S1x8, .f32⟩
  | 118 => ⟨S100000x8, .f32⟩
  | 119 => ⟨S100000x8, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x8, .f32⟩
  | 127 => ⟨S100000x8, .f32⟩
  | _ => ⟨S100000x256, .f32⟩

abbrev hbmTy0_1 (i : Nat) : BufTy := match i % 128 with
  | 0 => ⟨S100000x8, .f32⟩
  | 1 => ⟨S_, .f32⟩
  | 2 => ⟨S100000, .f32⟩
  | 3 => ⟨S100000x1, .f32⟩
  | 4 => ⟨S100000x1, .f32⟩
  | 5 => ⟨S100000x8, .f32⟩
  | 6 => ⟨S100000x8, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v92 : Ref sig .tc := ⟨.hbm, 134, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x8_S100000x8_1_0_0_1_n_n_wf : DotDims.WF S100000x16 S16x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf

class Facts : Prop extends Facts₀ where

variable [Facts]
-- ==== Proof.KernelRun.lean ====
/-
  The idealized kernel's run with its result named.

  @main is eight segments: a stretch of host operations, then a pipelined kernel, four times over. The contents of
  every buffer at each segment boundary are a fold from the launch memory (`Gen.W0 … Gen.W8`): a host stretch
  applies its operations, a kernel leaves its arrays at what its write-backs fold to and every other buffer as it was.
  Every weakly fair execution ends with each unscoped buffer at the last boundary's contents `Gen.W8`; read at the
  result buffer and at the eight arguments this is the run below: the result holds `W8` at its own reference, the
  arguments what they were launched with.
-/
import proofs.«119566_j23124103922098_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v75 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.GcnStages.lean ====
/-
  The network as pure functions of its eight arrays, in the host's spelling.

  A three-layer graph convolution on 100000 nodes and 3200000 directed edges (a [2, E] array of node numbers: row 0 the
  sources, row 1 the targets). With deg = 1 + (the number of edges into a node) and dinv = deg^(-1/2):

      norm e     = dinv (src e) · dinv (dst e)            per edge,
      self v     = dinv v · dinv v                        per node,
      agg xw     = the sum, into each node, over the edges into it of (row src of xw) · norm     (a gather, a scale, a
                   scatter-add into zeros),
      conv xw b  = agg xw + self · xw + b                 (self repeated along the row, the bias down the rows),

  and the network is  log_softmax (conv (relu (conv (relu (conv (x·W1) b1)) · W2) b2) · W3) b3)  row by row.

  Every piece is spelt here exactly as both printed programs spell it on the host — the wrap of a negative node number,
  the gathers, the scatter-adds, the broadcasts — once, so that the kernel's run and the reference's run are both stated
  in these terms and no gather or scatter is ever opened: the two programs apply the SAME chain to their projected
  features, and only the projections and epilogues (computed by kernels on one side, by host operations on the other) are
  compared entry by entry.
-/
import proofs.«119566_j23124103922098_1_alg».proof.Proof.Gen.ReferenceIdeal

noncomputable section

namespace Cert.Gcn

open Cert.ReferenceIdeal Cert.ReferenceIdeal.Gen Idealize.ShloMosaic

variable {F : FTy → Type} [FloatOps F]

/-- The sources of the edges. -/
def src (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- The targets of the edges. -/
def dst (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- A negative node number counts from the end. -/
def wrap (s : (⟨S3200000, .i32⟩ : BufTy).Contents (Elt F)) : (⟨S3200000, .i32⟩ : BufTy).Contents (Elt F) :=
  select (cmpi .slt s (broadcastInDim S3200000 ![] bcast_S_S3200000 (constantI S_ 32 0#32)))
    (addi s (broadcastInDim S3200000 ![] bcast_S_S3200000 (constantI S_ 32 100000#32))) s

/-- deg^(-1/2), deg = 1 + the number of edges into the node. -/
def dinv (d : (⟨S3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 d)
      (broadcastInDim S3200000 ![] bcast_S_S3200000 (constant S_ .f32 0x3F800000#32)))
    (broadcastInDim S100000 ![] bcast_S_S100000 (constant S_ .f32 0x3F800000#32)))

/-- The edge weights. -/
def normE (s d : (⟨S3200000, .i32⟩ : BufTy).Contents (Elt F)) : (⟨S3200000, .f32⟩ : BufTy).Contents (Elt F) :=
  mulf
    (Host.gather gather_S100000_S3200000x1_S3200000_n_0_n_n_0_1_1 (dinv d) (broadcastInDim S3200000x1 ![0] bcast_S3200000_S3200000x1_0 (wrap s)))
    (Host.gather gather_S100000_S3200000x1_S3200000_n_0_n_n_0_1_1 (dinv d) (broadcastInDim S3200000x1 ![0] bcast_S3200000_S3200000x1_0 (wrap d)))

/-- The self-loop weights. -/
def selfC (d : (⟨S3200000, .i32⟩ : BufTy).Contents (Elt F)) : (⟨S100000, .f32⟩ : BufTy).Contents (Elt F) :=
  mulf (dinv d) (dinv d)

/-- The neighbours' aggregate of 16-channel features. -/
def agg16 (s d : (⟨S3200000, .i32⟩ : BufTy).Contents (Elt F)) (nrm : (⟨S3200000, .f32⟩ : BufTy).Contents (Elt F))
    (xw : (⟨S100000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d)
    (mulf
      (Host.gather gather_S100000x16_S3200000x1_S3200000x16_1_0_n_n_0_1_116 xw (broadcastInDim S3200000x1 ![0] bcast_S3200000_S3200000x1_0 (wrap s)))
      (broadcastInDim S3200000x16 ![0, 1] bcast_S3200000x1_S3200000x16_0_1 (broadcastInDim S3200000x1 ![0] bcast_S3200000_S3200000x1_0 nrm)))

/-- The neighbours' aggregate of 8-channel features. -/
def agg8 (s d : (⟨S3200000, .i32⟩ : BufTy).Contents (Elt F)) (nrm : (⟨S3200000, .f32⟩ : BufTy).Contents (Elt F))
    (xw : (⟨S100000x8, .f32⟩ : BufTy).Contents (Elt F)) : (⟨S100000x8, .f32⟩ : BufTy).Contents (Elt F) :=
  Host.scatterAdd scatter_S100000x8_S3200000x1_S3200000x8_1_0_0_1
    (broadcastInDim S100000x8 ![] bcast_S_S100000x8 (constant S_ .f32 0x00000000#32))
    (broadcastInDim S3200000x1 ![0] bcast_S3200000_S3200000x1_0 d)
    (mulf
      (Host.gather gather_S100000x8_S3200000x1_S3200000x8_1_0_n_n_0_1_18 xw (broadcastInDim S3200000x1 ![0] bcast_S3200000_S3200000x1_0 (wrap s)))
      (broadcastInDim S3200000x8 ![0, 1] bcast_S3200000x1_S3200000x8_0_1 (broadcastInDim S3200000x1 ![0] bcast_S3200000_S3200000x1_0 nrm)))

/-- The host's pre-activation of a 16-channel layer: agg + self · xw + bias. -/
def conv16 (a xw : (⟨S100000x16, .f32⟩ : BufTy).Contents (Elt F)) (sc : (⟨S100000, .f32⟩ : BufTy).Contents (Elt F))
    (b : (⟨S16, .f32⟩ : BufTy).Contents (Elt F)) : (⟨S100000x16, .f32⟩ : BufTy).Contents (Elt F) :=
  addf (addf a (mulf (broadcastInDim S100000x16 ![0, 1] bcast_S100000x1_S100000x16_0_1 (broadcastInDim S100000x1 ![0] bcast_S100000_S100000x1_0 sc)) xw))
    (broadcastInDim S100000x16 ![0, 1] bcast_S1x16_S100000x16_0_1 (broadcastInDim S1x16 ![1] bcast_S16_S1x16_1 b))

/-- The host's pre-activation of the 8-channel layer. -/
def conv8 (a xw : (⟨S100000x8, .f32⟩ : BufTy).Contents (Elt F)) (sc : (⟨S100000, .f32⟩ : BufTy).Contents (Elt F))
    (b : (⟨S8, .f32⟩ : BufTy).Contents (Elt F)) : (⟨S100000x8, .f32⟩ : BufTy).Contents (Elt F) :=
  addf (addf a (mulf (broadcastInDim S100000x8 ![0, 1] bcast_S100000x1_S100000x8_0_1 (broadcastInDim S100000x1 ![0] bcast_S100000_S100000x1_0 sc)) xw))
    (broadcastInDim S100000x8 ![0, 1] bcast_S1x8_S100000x8_0_1 (broadcastInDim S1x8 ![1] bcast_S8_S1x8_1 b))

/-- The host's rectifier. -/
def relu16 (z : (⟨S100000x16, .f32⟩ : BufTy).Contents (Elt F)) : (⟨S100000x16, .f32⟩ : BufTy).Contents (Elt F) :=
  maximumf z (broadcastInDim S100000x16 ![] bcast_S_S100000x16 (constant S_ .f32 0x00000000#32))

/-- The host's row-wise log-softmax (the row maximum taken once more against −∞, as jax spells it). -/
def logSoftmax8 (z : (⟨S100000x8, .f32⟩ : BufTy).Contents (Elt F)) : (⟨S100000x8, .f32⟩ : BufTy).Contents (Elt F) :=
  subf
    (subf z (broadcastInDim S100000x8 ![0, 1] bcast_S100000x1_S100000x8_0_1 (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x8_S100000_d1 h_S_)))))
    (broadcastInDim S100000x8 ![0, 1] bcast_S100000x1_S100000x8_0_1 (Host.log (broadcastInDim S100000x1 ![0] bcast_S100000_S100000x1_0
      (Host.reduceAdd
        (Host.exp (subf z (broadcastInDim S100000x8 ![0, 1] bcast_S100000x1_S100000x8_0_1 (broadcastInDim S100000x1 ![0] bcast_S100000_S100000x1_0
          (maximumf (broadcastInDim S100000 ![] bcast_S_S100000 (constant S_ .f32 0xFF800000#32))
            (Host.reduce FloatOps.maximumf z (constant S_ .f32 0xFF800000#32) reducesTo_S100000x8_S100000_d1 h_S_))))))
        (constant S_ .f32 0x00000000#32) reducesTo_S100000x8_S100000_d1 h_S_))))

/-- The three projections, on the host. -/
def proj1 (x : (⟨S100000x256, .f32⟩ : BufTy).Contents (Elt F)) (w : (⟨S256x16, .f32⟩ : BufTy).Contents (Elt F)) :
    (⟨S100000x16, .f32⟩ : BufTy).Contents (Elt F) :=
  Host.dotGeneral dot_S100000x256_S256x16_S100000x16_1_0_0_1_n_n none x w
def proj2 (h : (⟨S100000x16, .f32⟩ : BufTy).Contents (Elt F)) (w : (⟨S16x16, .f32⟩ : BufTy).Contents (Elt F)) :
    (⟨S100000x16, .f32⟩ : BufTy).Contents (Elt F) :=
  Host.dotGeneral dot_S100000x16_S16x16_S100000x16_1_0_0_1_n_n none h w
def proj3 (h : (⟨S100000x16, .f32⟩ : BufTy).Contents (Elt F)) (w : (⟨S16x8, .f32⟩ : BufTy).Contents (Elt F)) :
    (⟨S100000x8, .f32⟩ : BufTy).Contents (Elt F) :=
  Host.dotGeneral dot_S100000x16_S16x8_S100000x8_1_0_0_1_n_n none h w

/-- A hidden layer from its projected features. -/
def hidden (s d : (⟨S3200000, .i32⟩ : BufTy).Contents (Elt F)) (xw : (⟨S100000x16, .f32⟩ : BufTy).Contents (Elt F))
    (b : (⟨S16, .f32⟩ : BufTy).Contents (Elt F)) : (⟨S100000x16, .f32⟩ : BufTy).Contents (Elt F) :=
  relu16 (conv16 (agg16 s d (normE s d) xw) xw (selfC d) b)

/-- The output layer from its projected features. -/
def output (s d : (⟨S3200000, .i32⟩ : BufTy).Contents (Elt F)) (xw : (⟨S100000x8, .f32⟩ : BufTy).Contents (Elt F))
    (b : (⟨S8, .f32⟩ : BufTy).Contents (Elt F)) : (⟨S100000x8, .f32⟩ : BufTy).Contents (Elt F) :=
  logSoftmax8 (conv8 (agg8 s d (normE s d) xw) xw (selfC d) b)

/-- The whole network. -/
def net (x : (⟨S100000x256, .f32⟩ : BufTy).Contents (Elt F)) (e : (⟨S2x3200000, .i32⟩ : BufTy).Contents (Elt F))
    (w1 : (⟨S256x16, .f32⟩ : BufTy).Contents (Elt F)) (b1 : (⟨S16, .f32⟩ : BufTy).Contents (Elt F))
    (w2 : (⟨S16x16, .f32⟩ : BufTy).Contents (Elt F)) (b2 : (⟨S16, .f32⟩ : BufTy).Contents (Elt F))
    (w3 : (⟨S16x8, .f32⟩ : BufTy).Contents (Elt F)) (b3 : (⟨S8, .f32⟩ : BufTy).Contents (Elt F)) :
    (⟨S100000x8, .f32⟩ : BufTy).Contents (Elt F) :=
  output (src e) (dst e) (proj3 (hidden (src e) (dst e) (proj2 (hidden (src e) (dst e) (proj1 x w1) b1) w2) b2) w3) b3

end Cert.Gcn

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.RegionLinear.lean ====
/-
  The first kernel: the node features times the first weight matrix, 5000 rows of the 100000 at a grid point.

  Point `t` of the 20 fetches rows 5000·t … 5000·t + 4999 of the features (all 256 columns) and the whole 256×16
  weight matrix, multiplies them into a zero accumulator and writes the 5000×16 product back as rows
  5000·t … 5000·t + 4999 of the result. An entry (r, q) of the result depends on row r of the features only, so
  the twenty blocks are restrictions of ONE function of the two whole arrays,

      prod x w (r, q) = Σ_{k < 256} x (r, k) · w (k, q),

  and since the blocks tile the result, the array the kernel leaves is that function.
-/
import proofs.«119566_j23124103922098_1_alg».proof.Proof.Gen.KernelIdeal.Frame
import proofs.«119566_j23124103922098_1_alg».proof.Proof.LibMatmul2d
import Idealize.ShloMosaic.Lib.Pipeline.Value
import Idealize.ShloMosaic.Lib.ValueIdx

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The matrix product of the whole arrays, entry by entry. -/
def prod (x : S100000x256.Idx → Elt Ideal .f32) (w : S256x16.Idx → Elt Ideal .f32) : S100000x16.Idx → Elt Ideal .f32 :=
  fun i => ∑ k : Fin 256, x (ix2 (⟨(i 0).val, (i 0).isLt⟩ : Fin 100000) k) * w (ix2 k (⟨(i 1).val, (i 1).isLt⟩ : Fin 16))

/-- The body's product of a 5000×256 block by the 256×16 matrix, at an entry: the narrowing to bf16 is the identity on
    extended reals, and the product into a zero accumulator is the sum over the contracted index. -/
theorem pay_at (x0 : Vec Ideal S5000x256 .f32) (x1 : Vec Ideal S256x16 .f32) (j : S5000x16.Idx) :
    k0_pay1 x0 x1 j = ∑ k : Fin 256, x0 (ix2 (⟨(j 0).val, (j 0).isLt⟩ : Fin 5000) k) * x1 (ix2 k (⟨(j 1).val, (j 1).isLt⟩ : Fin 16)) := by
  obtain ⟨p, q, rfl⟩ : ∃ (p : Fin 5000) (q : Fin 16), j = ix2 p q := ⟨j 0, j 1, eq_ix2 j⟩
  unfold k0_pay1
  exact Cert.LibMatmul2d.matmul_plain_apply (M := 5000) (K := 256) (N := 16)
    (truncf .bf16 x0 bitsLt_bf16_f32) (truncf .bf16 x1 bitsLt_bf16_f32) p q

/-- The printed index maps over the grid: the features' and the result's row block is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q : Fin 20, ∃ t : Fin cfg0.N, t.val = q.val :=
  (by decide +kernel : ∀ q : Fin 20, ∃ t : Fin grid0.N, t.val = q.val)

/-- What point `t` writes back is block `t` of the product of the whole arrays as the kernel finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x16) hz]
  obtain ⟨e0, e1, e2, e3, e4, e5⟩ := idx_facts t
  funext j
  show k0_pay1 (iblk0 V c 0 t) (iblk0 V c 1 t) j = prod (V c main_arg0) (V c main_arg2) (((cfg0.win 2).blk t).view.emb j)
  refine (pay_at _ _ j).trans ?_
  unfold prod
  refine Finset.sum_congr rfl fun k _ => ?_
  have hj0 : (j 0).val < 5000 := (j 0).isLt
  have hj1 : (j 1).val < 16 := (j 1).isLt
  have h0 : iblk0 V c 0 t (ix2 (⟨(j 0).val, (j 0).isLt⟩ : Fin 5000) k)
      = V c main_arg0 (ix2 (⟨((((cfg0.win 2).blk t).view.emb j) 0).val, ((((cfg0.win 2).blk t).view.emb j) 0).isLt⟩ : Fin 100000) k) := by
    show V c main_arg0 (((cfg0.win 0).blk t).view.emb (ix2 (⟨(j 0).val, (j 0).isLt⟩ : Fin 5000) k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (ix2 k (⟨(j 1).val, (j 1).isLt⟩ : Fin 16))
      = V c main_arg2 (ix2 k (⟨((((cfg0.win 2).blk t).view.emb j) 1).val, ((((cfg0.win 2).blk t).view.emb j) 1).isLt⟩ : Fin 16)) := by
    show V c main_arg2 (((cfg0.win 1).blk t).view.emb (ix2 k (⟨(j 1).val, (j 1).isLt⟩ : Fin 16))) = _
    refine congrArg _ (funext fun a => Fin.ext ?_)
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega
  rw [h0, h1]

/-- An index of the result is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v27).slice (win0_2.rect t)).set ↔ _
  rw [View.set_slice_whole, Rect.mem_set_unit]
  exact Iff.rfl

/-- The twenty row blocks tile the result: row r lies in the block of point r / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have ht' : t.val = (i 0).val / 5000 := ht
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The array the kernel leaves: the product of the two arrays it was entered with. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Linear

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibGcnEpilogue.lean ====
/-
  A graph-convolution layer's epilogue on the vector unit, read at an entry — at the exact instance, for any extents.

  Per node (row) p and channel k the layer's pre-activation is

      conv A X s r (p, k) = A (p, k) + s (p) · X (p, k) + r (k),

  the neighbours' aggregate plus the node's own projected features scaled by its self-loop weight (kept as a one-column
  matrix and repeated along the row) plus a bias (kept as one row and repeated down the rows). Two continuations:

    * a rectifier and the next layer's projection, (max(conv, 0) · W)(p, q) = Σ_k max(conv (p, k), 0) · W (k, q), the
      narrowing of both factors to bf16 being the identity on extended reals;
    * the row-wise log-softmax, (z − M) − log Σ_k exp (z_k − M) with z = conv (p, ·) and M the row's maximum (a fold of
      `max` from −∞).

  Every entry of row p reads row p of A, X and s only: that is what lets a kernel compute the layer band of rows by band
  of rows.
-/
import Idealize.ShloMosaic.Lib.ValueLayout
import Idealize.ShloMosaic.PureOps.Ideal.Laws
import proofs.«119566_j23124103922098_1_alg».proof.Proof.LibRowwise
import proofs.«119566_j23124103922098_1_alg».proof.Proof.LibMatmul2d

noncomputable section

namespace Cert.LibGcnEpilogue

open Idealize.ShloMosaic Idealize.ShloMosaic.ValueIdx
open scoped BigOperators

variable {a b n : ℕ}

/-! ## The specification, by coordinates -/

/-- The pre-activation at node `p`, channel `k`. -/
def conv (A X : (⟨2, ![a, b]⟩ : Shape).Idx → EReal) (s : (⟨2, ![a, 1]⟩ : Shape).Idx → EReal)
    (r : (⟨2, ![1, b]⟩ : Shape).Idx → EReal) (p : Fin a) (k : Fin b) : EReal :=
  A (ix2 p k) + s (ix2 p (0 : Fin 1)) * X (ix2 p k) + r (ix2 (0 : Fin 1) k)

/-- Rectify, then project by `W`. -/
def reluDense (A X : (⟨2, ![a, b]⟩ : Shape).Idx → EReal) (s : (⟨2, ![a, 1]⟩ : Shape).Idx → EReal)
    (r : (⟨2, ![1, b]⟩ : Shape).Idx → EReal) (W : (⟨2, ![b, n]⟩ : Shape).Idx → EReal) (p : Fin a) (q : Fin n) : EReal :=
  ∑ k : Fin b, max (conv A X s r p k) 0 * W (ix2 k q)

/-- The row's maximum, from −∞. -/
def rowMax (A X : (⟨2, ![a, b]⟩ : Shape).Idx → EReal) (s : (⟨2, ![a, 1]⟩ : Shape).Idx → EReal)
    (r : (⟨2, ![1, b]⟩ : Shape).Idx → EReal) (p : Fin a) : EReal :=
  (Finset.univ : Finset (Fin b)).fold max (Ideal.ofBits .f32 0xFF800000#32) (fun k => conv A X s r p k)

/-- The row-wise log-softmax of the pre-activation. -/
def logSoftmax (A X : (⟨2, ![a, b]⟩ : Shape).Idx → EReal) (s : (⟨2, ![a, 1]⟩ : Shape).Idx → EReal)
    (r : (⟨2, ![1, b]⟩ : Shape).Idx → EReal) (p : Fin a) (c : Fin b) : EReal :=
  (conv A X s r p c - rowMax A X s r p) - Ideal.log (∑ k : Fin b, Ideal.exp (conv A X s r p k - rowMax A X s r p))

/-! ## The vector unit's spelling -/

/-- `A + bcast(s) * X + bcast(r)` as the body spells it (each operand through an identity cast first). -/
def combine (A X : FVec Ideal ⟨2, ![a, b]⟩ .f32) (s : FVec Ideal ⟨2, ![a, 1]⟩ .f32) (r : FVec Ideal ⟨2, ![1, b]⟩ .f32)
    (hA hX : (⟨2, ![a, b]⟩ : Shape).ShapeCasts ⟨2, ![a, b]⟩) (hs : (⟨2, ![a, 1]⟩ : Shape).ShapeCasts ⟨2, ![a, 1]⟩)
    (hr : (⟨2, ![1, b]⟩ : Shape).ShapeCasts ⟨2, ![1, b]⟩)
    (hbs : (⟨2, ![a, 1]⟩ : Shape).Broadcasts ⟨2, ![a, b]⟩) (hbr : (⟨2, ![1, b]⟩ : Shape).Broadcasts ⟨2, ![a, b]⟩) :
    FVec Ideal ⟨2, ![a, b]⟩ .f32 :=
  addf (addf (shapeCast ⟨2, ![a, b]⟩ A hA) (mulf (broadcastTo ⟨2, ![a, b]⟩ (shapeCast ⟨2, ![a, 1]⟩ s hs) hbs) (shapeCast ⟨2, ![a, b]⟩ X hX)))
    (broadcastTo ⟨2, ![a, b]⟩ (shapeCast ⟨2, ![1, b]⟩ r hr) hbr)

theorem combine_apply (A X : FVec Ideal ⟨2, ![a, b]⟩ .f32) (s : FVec Ideal ⟨2, ![a, 1]⟩ .f32) (r : FVec Ideal ⟨2, ![1, b]⟩ .f32)
    (hA hX : (⟨2, ![a, b]⟩ : Shape).ShapeCasts ⟨2, ![a, b]⟩) (hs : (⟨2, ![a, 1]⟩ : Shape).ShapeCasts ⟨2, ![a, 1]⟩)
    (hr : (⟨2, ![1, b]⟩ : Shape).ShapeCasts ⟨2, ![1, b]⟩)
    (hbs : (⟨2, ![a, 1]⟩ : Shape).Broadcasts ⟨2, ![a, b]⟩) (hbr : (⟨2, ![1, b]⟩ : Shape).Broadcasts ⟨2, ![a, b]⟩)
    (p : Fin a) (k : Fin b) :
    combine A X s r hA hX hs hr hbs hbr (ix2 p k) = conv A X s r p k := by
  show (shapeCast ⟨2, ![a, b]⟩ A hA (ix2 p k)
        + broadcastTo ⟨2, ![a, b]⟩ (shapeCast ⟨2, ![a, 1]⟩ s hs) hbs (ix2 p k) * shapeCast ⟨2, ![a, b]⟩ X hX (ix2 p k))
      + broadcastTo ⟨2, ![a, b]⟩ (shapeCast ⟨2, ![1, b]⟩ r hr) hbr (ix2 p k) = _
  rw [Cert.LibRowwise.broadcastTo_a1_ab_apply, broadcastTo_1b_ab_apply]
  simp only [shapeCast_self]
  rfl

/-- The rectified pre-activation times `W` into a zero accumulator, at (p, q). -/
theorem reluDense_apply (A X : FVec Ideal ⟨2, ![a, b]⟩ .f32) (s : FVec Ideal ⟨2, ![a, 1]⟩ .f32) (r : FVec Ideal ⟨2, ![1, b]⟩ .f32)
    (W : FVec Ideal ⟨2, ![b, n]⟩ .f32)
    (hA hX : (⟨2, ![a, b]⟩ : Shape).ShapeCasts ⟨2, ![a, b]⟩) (hs : (⟨2, ![a, 1]⟩ : Shape).ShapeCasts ⟨2, ![a, 1]⟩)
    (hr : (⟨2, ![1, b]⟩ : Shape).ShapeCasts ⟨2, ![1, b]⟩)
    (hbs : (⟨2, ![a, 1]⟩ : Shape).Broadcasts ⟨2, ![a, b]⟩) (hbr : (⟨2, ![1, b]⟩ : Shape).Broadcasts ⟨2, ![a, b]⟩)
    (hlt : FTy.bf16.bits < FTy.f32.bits) (p : Fin a) (q : Fin n) :
    FloatOps.matmul (DotDims.plain a b n) none
        (truncf .bf16 (maximumf (combine A X s r hA hX hs hr hbs hbr) (broadcast ⟨2, ![a, b]⟩ (Scalar.ofBits .f32 0x00000000#32))) hlt)
        (truncf .bf16 W hlt) (constant ⟨2, ![a, n]⟩ .f32 0x00000000#32) (ix2 p q)
      = reluDense A X s r W p q := by
  refine (Cert.LibMatmul2d.matmul_plain_apply _ _ p q).trans ?_
  refine Finset.sum_congr rfl fun k _ => ?_
  show max (combine A X s r hA hX hs hr hbs hbr (ix2 p k)) (Ideal.ofBits .f32 0x00000000#32) * W (ix2 k q) = _
  rw [combine_apply, Ideal.ofBits_zero_f32]

/-- The body's shifted log-softmax of the pre-activation, at (p, c). -/
theorem logSoftmax_apply (A X : FVec Ideal ⟨2, ![a, b]⟩ .f32) (s : FVec Ideal ⟨2, ![a, 1]⟩ .f32) (r : FVec Ideal ⟨2, ![1, b]⟩ .f32)
    (hA hX : (⟨2, ![a, b]⟩ : Shape).ShapeCasts ⟨2, ![a, b]⟩) (hs : (⟨2, ![a, 1]⟩ : Shape).ShapeCasts ⟨2, ![a, 1]⟩)
    (hr : (⟨2, ![1, b]⟩ : Shape).ShapeCasts ⟨2, ![1, b]⟩)
    (hbs : (⟨2, ![a, 1]⟩ : Shape).Broadcasts ⟨2, ![a, b]⟩) (hbr : (⟨2, ![1, b]⟩ : Shape).Broadcasts ⟨2, ![a, b]⟩)
    (hred : (⟨2, ![a, b]⟩ : Shape).Reduces [1] ⟨1, ![a]⟩) (hc : (⟨1, ![a]⟩ : Shape).ShapeCasts ⟨2, ![a, 1]⟩)
    (hφ : FKind.Formats FTy.f32)
    (hmx : (0xFF800000#32 : BitVec FTy.f32.bits) = FKind.maximumf.neutral .f32 hφ)
    (hsm : (0x00000000#32 : BitVec FTy.f32.bits) = FKind.add.neutral .f32 hφ)
    (p : Fin a) (c : Fin b) :
    subf
      (subf (combine A X s r hA hX hs hr hbs hbr)
        (broadcastTo ⟨2, ![a, b]⟩ (shapeCast ⟨2, ![a, 1]⟩
          (multiReduction .maximumf [1] ⟨1, ![a]⟩ (combine A X s r hA hX hs hr hbs hbr) 0xFF800000#32 hred hφ hmx) hc) hbs))
      (broadcastTo ⟨2, ![a, b]⟩ (log (shapeCast ⟨2, ![a, 1]⟩
          (multiReduction .add [1] ⟨1, ![a]⟩
            (exp (subf (combine A X s r hA hX hs hr hbs hbr)
              (broadcastTo ⟨2, ![a, b]⟩ (shapeCast ⟨2, ![a, 1]⟩
                (multiReduction .maximumf [1] ⟨1, ![a]⟩ (combine A X s r hA hX hs hr hbs hbr) 0xFF800000#32 hred hφ hmx) hc) hbs)))
            0x00000000#32 hred hφ hsm) hc)) hbs) (ix2 p c)
      = logSoftmax A X s r p c := by
  -- the row's maximum, kept as a column and repeated along the row
  have hM : ∀ k : Fin b, broadcastTo ⟨2, ![a, b]⟩ (shapeCast ⟨2, ![a, 1]⟩
        (multiReduction .maximumf [1] ⟨1, ![a]⟩ (combine A X s r hA hX hs hr hbs hbr) 0xFF800000#32 hred hφ hmx) hc) hbs (ix2 p k)
      = rowMax A X s r p := fun k =>
    (Cert.LibRowwise.perRow_apply _ hc hbs p k).trans
      ((Cert.LibRowwise.rowMax_apply _ _ hred hφ hmx p).trans
        (congrArg (fun f => (Finset.univ : Finset (Fin b)).fold max (Ideal.ofBits .f32 0xFF800000#32) f)
          (funext fun k' => combine_apply A X s r hA hX hs hr hbs hbr p k')))
  -- the shifted entry
  have hsh : ∀ k : Fin b, subf (combine A X s r hA hX hs hr hbs hbr)
        (broadcastTo ⟨2, ![a, b]⟩ (shapeCast ⟨2, ![a, 1]⟩
          (multiReduction .maximumf [1] ⟨1, ![a]⟩ (combine A X s r hA hX hs hr hbs hbr) 0xFF800000#32 hred hφ hmx) hc) hbs) (ix2 p k)
      = conv A X s r p k - rowMax A X s r p := fun k =>
    (congrArg₂ (fun u v : EReal => u - v) (combine_apply A X s r hA hX hs hr hbs hbr p k) (hM k))
  unfold logSoftmax
  refine congrArg₂ (fun u v : EReal => u - v) (hsh c) ?_
  -- the logarithm of the row's sum of exponentials, kept as a column and repeated along the row
  refine (Cert.LibRowwise.broadcastTo_a1_ab_apply _ hbs p c).trans ?_
  show Ideal.log (shapeCast ⟨2, ![a, 1]⟩ _ hc (ix2 p (0 : Fin 1))) = _
  refine congrArg Ideal.log ?_
  refine (Cert.LibRowwise.shapeCast_a_a1_apply _ hc p 0).trans ?_
  refine (Cert.LibRowwise.rowSum_apply _ _ hred hφ hsm p).trans ?_
  refine Finset.sum_congr rfl fun k _ => ?_
  exact congrArg Ideal.exp (hsh k)

end Cert.LibGcnEpilogue

end
-- ==== Proof.RegionHidden1.lean ====
/-
  The second kernel: the first layer's epilogue and rectifier fused with the second layer's projection.

  Point `t` of the 20 fetches rows 5000·t … 5000·t + 4999 of the neighbours' aggregate, of the layer's projected features
  and of the self-loop weights (a one-column matrix), and the whole bias row and weight matrix; it forms
  agg + self · xw + bias, rectifies it, multiplies by the weights into a zero accumulator and writes the product back as
  the same rows of the result (100000 × 16). A row of the result reads the same row of the three row-blocked operands only, so
  the twenty blocks are restrictions of one function of the five whole arrays, and they tile the result.
-/
import proofs.«119566_j23124103922098_1_alg».proof.Proof.Gen.KernelIdeal.Frame
import proofs.«119566_j23124103922098_1_alg».proof.Proof.LibGcnEpilogue
import Idealize.ShloMosaic.Lib.Pipeline.Value
import Idealize.ShloMosaic.Lib.ValueIdx

set_option maxRecDepth 16384

noncomputable section

namespace Cert.KernelIdeal.Hidden1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer's function of the whole arrays, entry by entry. -/
def spec (A X : S100000x16.Idx → Elt Ideal .f32) (s : S100000x1.Idx → Elt Ideal .f32) (r : S1x16.Idx → Elt Ideal .f32) (W : S16x16.Idx → Elt Ideal .f32) : S100000x16.Idx → Elt Ideal .f32 :=
  fun i => Cert.LibGcnEpilogue.reluDense (a := 100000) (b := 16) (n := 16) A X s r W (⟨(i 0).val, (i 0).isLt⟩ : Fin 100000) (⟨(i 1).val, (i 1).isLt⟩ : Fin 16)

/-- The body's value at an entry of its block, as the same function of the blocks it loaded. -/
theorem pay_at (x0 : Vec Ideal S5000x16 .f32) (x2 : Vec Ideal S5000x1 .f32) (x1 : Vec Ideal S5000x16 .f32) (x3 : Vec Ideal S1x16 .f32) (x4 : Vec Ideal S16x16 .f32) (j : S5000x16.Idx) :
    k1_pay1 x0 x2 x1 x3 x4 j = Cert.LibGcnEpilogue.reluDense (a := 5000) (b := 16) (n := 16) x0 x1 x2 x3 x4 (⟨(j 0).val, (j 0).isLt⟩ : Fin 5000) (⟨(j 1).val, (j 1).isLt⟩ : Fin 16) := by
  obtain ⟨p, q, rfl⟩ : ∃ (p : Fin 5000) (q : Fin 16), j = ix2 p q := ⟨j 0, j 1, eq_ix2 j⟩
  unfold k1_pay1
  exact Cert.LibGcnEpilogue.reluDense_apply (a := 5000) (b := 16) (n := 16) x0 x1 x2 x3 x4 _ _ _ _ _ _ _ p q

/-- The printed index maps over the grid: the row-blocked windows sit at the point's number, every other block index is
    zero. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Every row block is some point's. -/
theorem idx_onto : ∀ q : Fin 20, ∃ t : Fin cfg1.N, t.val = q.val :=
  (by decide +kernel : ∀ q : Fin 20, ∃ t : Fin grid1.N, t.val = q.val)

set_option maxHeartbeats 2000000 in
/-- What point `t` writes back is block `t` of the layer's function of the whole arrays as the kernel finds them: a
    row of the block reads the same row of each row-blocked operand, and the bias and the weights whole. -/
theorem flushed_eq (c : Dev nD) (t : Fin cfg1.N) :
    (dat1 V c).flushed 5 t = ((cfg1.win 5).blk t).view.read (Elt Ideal) (spec (V c main_v40) (V c main_v27) (V c main_v42) (V c main_v41) (V c main_arg4)) := by
  show (cfg1.win 5).cut (grid1.coords t) ((dat1 V c).after 5 t) = _
  rw [after1_5]
  unfold out1_5
  rw [View.canon_unit_zero hz]
  simp only [View.ld_unit_zero (S := S5000x16) hz, View.ld_unit_zero (S := S5000x1) hz, View.ld_unit_zero (S := S1x16) hz, View.ld_unit_zero (S := S16x16) hz]
  obtain ⟨e0, e1, e2, e3, e4, e5, e6, e7, e8, e9, e10, e11⟩ := idx_facts t
  funext j
  show k1_pay1 (iblk1 V c 0 t) (iblk1 V c 2 t) (iblk1 V c 1 t) (iblk1 V c 3 t) (iblk1 V c 4 t) j = spec (V c main_v40) (V c main_v27) (V c main_v42) (V c main_v41) (V c main_arg4) (((cfg1.win 5).blk t).view.emb j)
  refine (pay_at _ _ _ _ _ j).trans ?_
  have hj0 : (j 0).val < 5000 := (j 0).isLt
  have hj1 : (j 1).val < 16 := (j 1).isLt
  unfold spec Cert.LibGcnEpilogue.reluDense Cert.LibGcnEpilogue.conv
  refine Finset.sum_congr rfl fun k _ => ?_
  have hA : iblk1 V c 0 t (ix2 (⟨(j 0).val, (j 0).isLt⟩ : Fin 5000) k)
      = V c main_v40 (ix2 (⟨((((cfg1.win 5).blk t).view.emb j) 0).val, ((((cfg1.win 5).blk t).view.emb j) 0).isLt⟩ : Fin 100000) k) := by
    show V c main_v40 (((cfg1.win 0).blk t).view.emb (ix2 (⟨(j 0).val, (j 0).isLt⟩ : Fin 5000) k)) = _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 16 + 1 * k.val = k.val; omega
  have hX : iblk1 V c 1 t (ix2 (⟨(j 0).val, (j 0).isLt⟩ : Fin 5000) k)
      = V c main_v27 (ix2 (⟨((((cfg1.win 5).blk t).view.emb j) 0).val, ((((cfg1.win 5).blk t).view.emb j) 0).isLt⟩ : Fin 100000) k) := by
    show V c main_v27 (((cfg1.win 1).blk t).view.emb (ix2 (⟨(j 0).val, (j 0).isLt⟩ : Fin 5000) k)) = _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 16 + 1 * k.val = k.val; omega
  have hs : iblk1 V c 2 t (ix2 (⟨(j 0).val, (j 0).isLt⟩ : Fin 5000) (0 : Fin 1))
      = V c main_v42 (ix2 (⟨((((cfg1.win 5).blk t).view.emb j) 0).val, ((((cfg1.win 5).blk t).view.emb j) 0).isLt⟩ : Fin 100000) (0 : Fin 1)) := by
    show V c main_v42 (((cfg1.win 2).blk t).view.emb (ix2 (⟨(j 0).val, (j 0).isLt⟩ : Fin 5000) (0 : Fin 1))) = _
    refine congrArg _ (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * (0 : Fin 1).val = (0 : Fin 1).val; omega
  have hr : iblk1 V c 3 t (ix2 (0 : Fin 1) k)
      = V c main_v41 (ix2 (0 : Fin 1) k) := by
    show V c main_v41 (((cfg1.win 3).blk t).view.emb (ix2 (0 : Fin 1) k)) = _
    refine congrArg _ (funext fun a => Fin.ext ?_)
    match a with
    | ⟨0, _⟩ => show win1_3.index t (0 : Fin 2) * 1 + 1 * (0 : Fin 1).val = (0 : Fin 1).val; omega
    | ⟨1, _⟩ => show win1_3.index t (1 : Fin 2) * 16 + 1 * k.val = k.val; omega
  have hW : iblk1 V c 4 t (ix2 k (⟨(j 1).val, (j 1).isLt⟩ : Fin 16))
      = V c main_arg4 (ix2 k (⟨((((cfg1.win 5).blk t).view.emb j) 1).val, ((((cfg1.win 5).blk t).view.emb j) 1).isLt⟩ : Fin 16)) := by
    show V c main_arg4 (((cfg1.win 4).blk t).view.emb (ix2 k (⟨(j 1).val, (j 1).isLt⟩ : Fin 16))) = _
    refine congrArg _ (funext fun a => Fin.ext ?_)
    match a with
    | ⟨0, _⟩ => show win1_4.index t (0 : Fin 2) * 16 + 1 * k.val = k.val; omega
    | ⟨1, _⟩ => show win1_4.index t (1 : Fin 2) * 16 + 1 * (j 1).val = win1_5.index t (1 : Fin 2) * 16 + 1 * (j 1).val; omega
  rw [hA, hX, hs, hr, hW]

/-- An index of the result is in point `t`'s block iff each coordinate is in the block's range on its axis. -/
theorem mem_blk (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v43).slice (win1_5.rect t)).set ↔ _
  rw [View.set_slice_whole, Rect.mem_set_unit]
  exact Iff.rfl

/-- The twenty row blocks tile the result: row r lies in the block of point r / 5000. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  obtain ⟨t, ht⟩ := idx_onto ⟨(i 0).val / 5000, by omega⟩
  have ht' : t.val = (i 0).val / 5000 := ht
  obtain ⟨e0, e1, e2, e3, e4, e5, e6, e7, e8, e9, e10, e11⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 16 ≤ (i 1).val ∧ (i 1).val < win1_5.index t (1 : Fin 2) * 16 + 16; omega

/-- The array the kernel leaves: the layer's function of the arrays it was entered with. -/
theorem final (c : Dev nD) : (dat1 V c).arrAt 5 cfg1.N = spec (V c main_v40) (V c main_v27) (V c main_v42) (V c main_v41) (V c main_arg4) :=
  (dat1 V c).arrAt_eq_of_cover 5 (spec (V c main_v40) (V c main_v27) (V c main_v42) (V c main_v41) (V c main_arg4)) (fun t _ => flushed_eq V c t) cover

end Cert.KernelIdeal.Hidden1

end
-- ==== Proof.RegionHidden2.lean ====
/-
  The third kernel: the second layer's epilogue and rectifier fused with the third layer's projection.

  Point `t` of the 20 fetches rows 5000·t … 5000·t + 4999 of the neighbours' aggregate, of the layer's projected features
  and of the self-loop weights (a one-column matrix), and the whole bias row and weight matrix; it forms
  agg + self · xw + bias, rectifies it, multiplies by the weights into a zero accumulator and writes the product back as
  the same rows of the result (100000 × 8). A row of the result reads the same row of the three row-blocked operands only, so
  the twenty blocks are restrictions of one function of the five whole arrays, and they tile the result.
-/
import proofs.«119566_j23124103922098_1_alg».proof.Proof.Gen.KernelIdeal.Frame
import proofs.«119566_j23124103922098_1_alg».proof.Proof.LibGcnEpilogue
import Idealize.ShloMosaic.Lib.Pipeline.Value
import Idealize.ShloMosaic.Lib.ValueIdx

set_option maxRecDepth 16384

noncomputable section

namespace Cert.KernelIdeal.Hidden2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer's function of the whole arrays, entry by entry. -/
def spec (A X : S100000x16.Idx → Elt Ideal .f32) (s : S100000x1.Idx → Elt Ideal .f32) (r : S1x16.Idx → Elt Ideal .f32) (W : S16x8.Idx → Elt Ideal .f32) : S100000x8.Idx → Elt Ideal .f32 :=
  fun i => Cert.LibGcnEpilogue.reluDense (a := 100000) (b := 16) (n := 8) A X s r W (⟨(i 0).val, (i 0).isLt⟩ : Fin 100000) (⟨(i 1).val, (i 1).isLt⟩ : Fin 8)

/-- The body's value at an entry of its block, as the same function of the blocks it loaded. -/
theorem pay_at (x0 : Vec Ideal S5000x16 .f32) (x2 : Vec Ideal S5000x1 .f32) (x1 : Vec Ideal S5000x16 .f32) (x3 : Vec Ideal S1x16 .f32) (x4 : Vec Ideal S16x8 .f32) (j : S5000x8.Idx) :
    k2_pay1 x0 x2 x1 x3 x4 j = Cert.LibGcnEpilogue.reluDense (a := 5000) (b := 16) (n := 8) x0 x1 x2 x3 x4 (⟨(j 0).val, (j 0).isLt⟩ : Fin 5000) (⟨(j 1).val, (j 1).isLt⟩ : Fin 8) := by
  obtain ⟨p, q, rfl⟩ : ∃ (p : Fin 5000) (q : Fin 8), j = ix2 p q := ⟨j 0, j 1, eq_ix2 j⟩
  unfold k2_pay1
  exact Cert.LibGcnEpilogue.reluDense_apply (a := 5000) (b := 16) (n := 8) x0 x1 x2 x3 x4 _ _ _ _ _ _ _ p q

/-- The printed index maps over the grid: the row-blocked windows sit at the point's number, every other block index is
    zero. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Every row block is some point's. -/
theorem idx_onto : ∀ q : Fin 20, ∃ t : Fin cfg2.N, t.val = q.val :=
  (by decide +kernel : ∀ q : Fin 20, ∃ t : Fin grid2.N, t.val = q.val)

set_option maxHeartbeats 2000000 in
/-- What point `t` writes back is block `t` of the layer's function of the whole arrays as the kernel finds them: a
    row of the block reads the same row of each row-blocked operand, and the bias and the weights whole. -/
theorem flushed_eq (c : Dev nD) (t : Fin cfg2.N) :
    (dat2 V c).flushed 5 t = ((cfg2.win 5).blk t).view.read (Elt Ideal) (spec (V c main_v56) (V c main_v43) (V c main_v58) (V c main_v57) (V c main_arg6)) := by
  show (cfg2.win 5).cut (grid2.coords t) ((dat2 V c).after 5 t) = _
  rw [after2_5]
  unfold out2_5
  rw [View.canon_unit_zero hz]
  simp only [View.ld_unit_zero (S := S5000x16) hz, View.ld_unit_zero (S := S5000x1) hz, View.ld_unit_zero (S := S1x16) hz, View.ld_unit_zero (S := S16x8) hz]
  obtain ⟨e0, e1, e2, e3, e4, e5, e6, e7, e8, e9, e10, e11⟩ := idx_facts t
  funext j
  show k2_pay1 (iblk2 V c 0 t) (iblk2 V c 2 t) (iblk2 V c 1 t) (iblk2 V c 3 t) (iblk2 V c 4 t) j = spec (V c main_v56) (V c main_v43) (V c main_v58) (V c main_v57) (V c main_arg6) (((cfg2.win 5).blk t).view.emb j)
  refine (pay_at _ _ _ _ _ j).trans ?_
  have hj0 : (j 0).val < 5000 := (j 0).isLt
  have hj1 : (j 1).val < 8 := (j 1).isLt
  unfold spec Cert.LibGcnEpilogue.reluDense Cert.LibGcnEpilogue.conv
  refine Finset.sum_congr rfl fun k _ => ?_
  have hA : iblk2 V c 0 t (ix2 (⟨(j 0).val, (j 0).isLt⟩ : Fin 5000) k)
      = V c main_v56 (ix2 (⟨((((cfg2.win 5).blk t).view.emb j) 0).val, ((((cfg2.win 5).blk t).view.emb j) 0).isLt⟩ : Fin 100000) k) := by
    show V c main_v56 (((cfg2.win 0).blk t).view.emb (ix2 (⟨(j 0).val, (j 0).isLt⟩ : Fin 5000) k)) = _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 16 + 1 * k.val = k.val; omega
  have hX : iblk2 V c 1 t (ix2 (⟨(j 0).val, (j 0).isLt⟩ : Fin 5000) k)
      = V c main_v43 (ix2 (⟨((((cfg2.win 5).blk t).view.emb j) 0).val, ((((cfg2.win 5).blk t).view.emb j) 0).isLt⟩ : Fin 100000) k) := by
    show V c main_v43 (((cfg2.win 1).blk t).view.emb (ix2 (⟨(j 0).val, (j 0).isLt⟩ : Fin 5000) k)) = _
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 16 + 1 * k.val = k.val; omega
  have hs : iblk2 V c 2 t (ix2 (⟨(j 0).val, (j 0).isLt⟩ : Fin 5000) (0 : Fin 1))
      = V c main_v58 (ix2 (⟨((((cfg2.win 5).blk t).view.emb j) 0).val, ((((cfg2.win 5).blk t).view.emb j) 0).isLt⟩ : Fin 100000) (0 : Fin 1)) := by
    show V c main_v58 (((cfg2.win 2).blk t).view.emb (ix2 (⟨(j 0).val, (j 0).isLt⟩ : Fin 5000) (0 : Fin 1))) = _
    refine congrArg _ (funext fun a => Fin.ext ?_)
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 1 + 1 * (0 : Fin 1).val = (0 : Fin 1).val; omega
  have hr : iblk2 V c 3 t (ix2 (0 : Fin 1) k)
      = V c main_v57 (ix2 (0 : Fin 1) k) := by
    show V c main_v57 (((cfg2.win 3).blk t).view.emb (ix2 (0 : Fin 1) k)) = _
    refine congrArg _ (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 16 + 1 * k.val = k.val; omega
  have hW : iblk2 V c 4 t (ix2 k (⟨(j 1).val, (j 1).isLt⟩ : Fin 8))
      = V c main_arg6 (ix2 k (⟨((((cfg2.win 5).blk t).view.emb j) 1).val, ((((cfg2.win 5).blk t).view.emb j) 1).isLt⟩ : Fin 8)) := by
    show V c main_arg6 (((cfg2.win 4).blk t).view.emb (ix2 k (⟨(j 1).val, (j 1).isLt⟩ : Fin 8))) = _
    refine congrArg _ (funext fun a => Fin.ext ?_)
    match a with
    | ⟨0, _⟩ => show win2_4.index t (0 : Fin 2) * 16 + 1 * k.val = k.val; omega
    | ⟨1, _⟩ => show win2_4.index t (1 : Fin 2) * 8 + 1 * (j 1).val = win2_5.index t (1 : Fin 2) * 8 + 1 * (j 1).val; omega
  rw [hA, hX, hs, hr, hW]

/-- An index of the result is in point `t`'s block iff each coordinate is in the block's range on its axis. -/
theorem mem_blk (t : Fin cfg2.N) (i : S100000x8.Idx) :
    i ∈ ((cfg2.win 5).blk t).view.set ↔ ∀ a : Fin 2, win2_5.index t a * S5000x8.size a ≤ (i a).val ∧ (i a).val < win2_5.index t a * S5000x8.size a + S5000x8.size a := by
  show i ∈ ((View.whole main_v59).slice (win2_5.rect t)).set ↔ _
  rw [View.set_slice_whole, Rect.mem_set_unit]
  exact Iff.rfl

/-- The twenty row blocks tile the result: row r lies in the block of point r / 5000. -/
theorem cover (i : S100000x8.Idx) : ∃ t : Fin cfg2.N, (cfg2.win 5).flush t = true ∧ i ∈ ((cfg2.win 5).blk t).view.set := by
  have hi0 : (i 0).val < 100000 := (i 0).isLt
  have hi1 : (i 1).val < 8 := (i 1).isLt
  obtain ⟨t, ht⟩ := idx_onto ⟨(i 0).val / 5000, by omega⟩
  have ht' : t.val = (i 0).val / 5000 := ht
  obtain ⟨e0, e1, e2, e3, e4, e5, e6, e7, e8, e9, e10, e11⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 8 ≤ (i 1).val ∧ (i 1).val < win2_5.index t (1 : Fin 2) * 8 + 8; omega

/-- The array the kernel leaves: the layer's function of the arrays it was entered with. -/
theorem final (c : Dev nD) : (dat2 V c).arrAt 5 cfg2.N = spec (V c main_v56) (V c main_v43) (V c main_v58) (V c main_v57) (V c main_arg6) :=
  (dat2 V c).arrAt_eq_of_cover 5 (spec (V c main_v56) (V c main_v43) (V c main_v58) (V c main_v57) (V c main_arg6)) (fun t _ => flushed_eq V c t) cover

end Cert.KernelIdeal.Hidden2

end
-- ==== Proof.RegionOutput.lean ====
/-
  The fourth kernel: the third layer's epilogue fused with the row-wise log-softmax.

  Point `t` of the 20 fetches rows 5000·t … 5000·t + 4999 of the neighbours' aggregate, of the layer's projected features
  and of the self-loop weights (a one-column matrix), and the whole bias row; it forms z = agg + self · xw + bias, takes each
  row's maximum M, and writes (z − M) − log Σ_k exp (z_k − M) back as the same rows of the result. A row of the result
  reads the same row of the three row-blocked operands only, so the twenty blocks are restrictions of one function of the
  four whole arrays, and they tile the result.
-/
import proofs.«119566_j23124103922098_1_alg».proof.Proof.Gen.KernelIdeal.Frame
import proofs.«119566_j23124103922098_1_alg».proof.Proof.LibGcnEpilogue
import Idealize.ShloMosaic.Lib.Pipeline.Value
import Idealize.ShloMosaic.Lib.ValueIdx

set_option maxRecDepth 16384

noncomputable section

namespace Cert.KernelIdeal.Output

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer's function of the whole arrays, entry by entry. -/
def spec (A X : S100000x8.Idx → Elt Ideal .f32) (s : S100000x1.Idx → Elt Ideal .f32) (r : S1x8.Idx → Elt Ideal .f32) : S100000x8.Idx → Elt Ideal .f32 :=
  fun i => Cert.LibGcnEpilogue.logSoftmax (a := 100000) (b := 8) A X s r (⟨(i 0).val, (i 0).isLt⟩ : Fin 100000) (⟨(i 1).val, (i 1).isLt⟩ : Fin 8)

/-- The body's value at an entry of its block, as the same function of the blocks it loaded. -/
theorem pay_at (x0 : Vec Ideal S5000x8 .f32) (x2 : Vec Ideal S5000x1 .f32) (x1 : Vec Ideal S5000x8 .f32) (x3 : Vec Ideal S1x8 .f32) (j : S5000x8.Idx) :
    k3_pay1 x0 x2 x1 x3 j = Cert.LibGcnEpilogue.logSoftmax (a := 5000) (b := 8) x0 x1 x2 x3 (⟨(j 0).val, (j 0).isLt⟩ : Fin 5000) (⟨(j 1).val, (j 1).isLt⟩ : Fin 8) := by
  obtain ⟨p, q, rfl⟩ : ∃ (p : Fin 5000) (q : Fin 8), j = ix2 p q := ⟨j 0, j 1, eq_ix2 j⟩
  unfold k3_pay1
  exact Cert.LibGcnEpilogue.logSoftmax_apply (a := 5000) (b := 8) x0 x1 x2 x3 _ _ _ _ _ _ _ _ _ _ _ p q

/-- The printed index maps over the grid: the row-blocked windows sit at the point's number, every other block index is
    zero. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- Every row block is some point's. -/
theorem idx_onto : ∀ q : Fin 20, ∃ t : Fin cfg3.N, t.val = q.val :=
  (by decide +kernel : ∀ q : Fin 20, ∃ t : Fin grid3.N, t.val = q.val)

set_option maxHeartbeats 2000000 in
/-- What point `t` writes back is block `t` of the layer's function of the whole arrays as the kernel finds them: a
    row of the block reads the same row of each row-blocked operand, and the bias whole. -/
theorem flushed_eq (c : Dev nD) (t : Fin cfg3.N) :
    (dat3 V c).flushed 4 t = ((cfg3.win 4).blk t).view.read (Elt Ideal) (spec (V c main_v72) (V c main_v59) (V c main_v74) (V c main_v73)) := by
  show (cfg3.win 4).cut (grid3.coords t) ((dat3 V c).after 4 t) = _
  rw [after3_4]
  unfold out3_4
  rw [View.canon_unit_zero hz]
  simp only [View.ld_unit_zero (S := S5000x8) hz, View.ld_unit_zero (S := S5000x1) hz, View.ld_unit_zero (S := S1x8) hz]
  obtain ⟨e0, e1, e2, e3, e4, e5, e6, e7, e8, e9⟩ := idx_facts t
  funext j
  show k3_pay1 (iblk3 V c 0 t) (iblk3 V c 2 t) (iblk3 V c 1 t) (iblk3 V c 3 t) j = spec (V c main_v72) (V c main_v59) (V c main_v74) (V c main_v73) (((cfg3.win 4).blk t).view.emb j)
  refine (pay_at _ _ _ _ j).trans ?_
  have hj0 : (j 0).val < 5000 := (j 0).isLt
  have hj1 : (j 1).val < 8 := (j 1).isLt
  have hconv : ∀ k : Fin 8,
      Cert.LibGcnEpilogue.conv (a := 5000) (b := 8) (iblk3 V c 0 t) (iblk3 V c 1 t) (iblk3 V c 2 t) (iblk3 V c 3 t) (⟨(j 0).val, (j 0).isLt⟩ : Fin 5000) k
        = Cert.LibGcnEpilogue.conv (a := 100000) (b := 8) (V c main_v72) (V c main_v59) (V c main_v74) (V c main_v73)
            (⟨((((cfg3.win 4).blk t).view.emb j) 0).val, ((((cfg3.win 4).blk t).view.emb j) 0).isLt⟩ : Fin 100000) k := by
    intro k
    unfold Cert.LibGcnEpilogue.conv
    have hA : iblk3 V c 0 t (ix2 (⟨(j 0).val, (j 0).isLt⟩ : Fin 5000) k)
        = V c main_v72 (ix2 (⟨((((cfg3.win 4).blk t).view.emb j) 0).val, ((((cfg3.win 4).blk t).view.emb j) 0).isLt⟩ : Fin 100000) k) := by
      show V c main_v72 (((cfg3.win 0).blk t).view.emb (ix2 (⟨(j 0).val, (j 0).isLt⟩ : Fin 5000) k)) = _
      refine congrArg _ (funext fun a => Fin.ext ?_)
      match a with
      | ⟨0, _⟩ => show win3_0.index t (0 : Fin 2) * 5000 + 1 * (j 0).val = win3_4.index t (0 : Fin 2) * 5000 + 1 * (j 0).val; omega
      | ⟨1, _⟩ => show win3_0.index t (1 : Fin 2) * 8 + 1 * k.val = k.val; omega
    have hX : iblk3 V c 1 t (ix2 (⟨(j 0).val, (j 0).isLt⟩ : Fin 5000) k)
        = V c main_v59 (ix2 (⟨((((cfg3.win 4).blk t).view.emb j) 0).val, ((((cfg3.win 4).blk t).view.emb j) 0).isLt⟩ : Fin 100000) k) := by
      show V c main_v59 (((cfg3.win 1).blk t).view.emb (ix2 (⟨(j 0).val, (j 0).isLt⟩ : Fin 5000) k)) = _
      refine congrArg _ (funext fun a => Fin.ext ?_)
      match a with
      | ⟨0, _⟩ => show win3_1.index t (0 : Fin 2) * 5000 + 1 * (j 0).val = win3_4.index t (0 : Fin 2) * 5000 + 1 * (j 0).val; omega
      | ⟨1, _⟩ => show win3_1.index t (1 : Fin 2) * 8 + 1 * k.val = k.val; omega
    have hs : iblk3 V c 2 t (ix2 (⟨(j 0).val, (j 0).isLt⟩ : Fin 5000) (0 : Fin 1))
        = V c main_v74 (ix2 (⟨((((cfg3.win 4).blk t).view.emb j) 0).val, ((((cfg3.win 4).blk t).view.emb j) 0).isLt⟩ : Fin 100000) (0 : Fin 1)) := by
      show V c main_v74 (((cfg3.win 2).blk t).view.emb (ix2 (⟨(j 0).val, (j 0).isLt⟩ : Fin 5000) (0 : Fin 1))) = _
      refine congrArg _ (funext fun a => Fin.ext ?_)
      match a with
      | ⟨0, _⟩ => show win3_2.index t (0 : Fin 2) * 5000 + 1 * (j 0).val = win3_4.index t (0 : Fin 2) * 5000 + 1 * (j 0).val; omega
      | ⟨1, _⟩ => show win3_2.index t (1 : Fin 2) * 1 + 1 * (0 : Fin 1).val = (0 : Fin 1).val; omega
    have hr : iblk3 V c 3 t (ix2 (0 : Fin 1) k)
        = V c main_v73 (ix2 (0 : Fin 1) k) := by
      show V c main_v73 (((cfg3.win 3).blk t).view.emb (ix2 (0 : Fin 1) k)) = _
      refine congrArg _ (funext fun a => Fin.ext ?_)
      match a with
      | ⟨0, _⟩ => show win3_3.index t (0 : Fin 2) * 1 + 1 * (0 : Fin 1).val = (0 : Fin 1).val; omega
      | ⟨1, _⟩ => show win3_3.index t (1 : Fin 2) * 8 + 1 * k.val = k.val; omega
    rw [hA, hX, hs, hr]
  have hc : ((((cfg3.win 4).blk t).view.emb j) 1).val = (j 1).val := by
    show win3_4.index t (1 : Fin 2) * 8 + 1 * (j 1).val = (j 1).val; omega
  have hcol : (⟨((((cfg3.win 4).blk t).view.emb j) 1).val, ((((cfg3.win 4).blk t).view.emb j) 1).isLt⟩ : Fin 8) = (⟨(j 1).val, (j 1).isLt⟩ : Fin 8) := Fin.ext hc
  unfold spec Cert.LibGcnEpilogue.logSoftmax Cert.LibGcnEpilogue.rowMax
  rw [hcol]
  simp only [hconv]

/-- An index of the result is in point `t`'s block iff each coordinate is in the block's range on its axis. -/
theorem mem_blk (t : Fin cfg3.N) (i : S100000x8.Idx) :
    i ∈ ((cfg3.win 4).blk t).view.set ↔ ∀ a : Fin 2, win3_4.index t a * S5000x8.size a ≤ (i a).val ∧ (i a).val < win3_4.index t a * S5000x8.size a + S5000x8.size a := by
  show i ∈ ((View.whole main_v75).slice (win3_4.rect t)).set ↔ _
  rw [View.set_slice_whole, Rect.mem_set_unit]
  exact Iff.rfl

/-- The twenty row blocks tile the result: row r lies in the block of point r / 5000. -/
theorem cover (i : S100000x8.Idx) : ∃ t : Fin cfg3.N, (cfg3.win 4).flush t = true ∧ i ∈ ((cfg3.win 4).blk t).view.set := by
  have hi0 : (i 0).val < 100000 := (i 0).isLt
  have hi1 : (i 1).val < 8 := (i 1).isLt
  obtain ⟨t, ht⟩ := idx_onto ⟨(i 0).val / 5000, by omega⟩
  have ht' : t.val = (i 0).val / 5000 := ht
  obtain ⟨e0, e1, e2, e3, e4, e5, e6, e7, e8, e9⟩ := idx_facts t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 8 ≤ (i 1).val ∧ (i 1).val < win3_4.index t (1 : Fin 2) * 8 + 8; omega

/-- The array the kernel leaves: the layer's function of the arrays it was entered with. -/
theorem final (c : Dev nD) : (dat3 V c).arrAt 4 cfg3.N = spec (V c main_v72) (V c main_v59) (V c main_v74) (V c main_v73) :=
  (dat3 V c).arrAt_eq_of_cover 4 (spec (V c main_v72) (V c main_v59) (V c main_v74) (V c main_v73)) (fun t _ => flushed_eq V c t) cover

end Cert.KernelIdeal.Output

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibRowScale.lean ====
/-
  Rows of a matrix scaled by a per-row weight, two spellings of one array.

  A weight vector `n : [a]` scales the rows of `g : [a, b]`. One spelling keeps the weights as a column `[a, 1]`
  (a reshape of the vector) and multiplies entry (p, c) by the column's entry (p, 0). The other repeats the weights
  along the rows by two broadcasts, `[a] → [a, 1]` and `[a, 1] → [a, b]`, and multiplies the two matrices entry by
  entry. Both read `g (p, c) · n p`.
-/
import Idealize.ShloMosaic.Lib.ValueIdx
import Idealize.ShloMosaic.Lib.ValueLayout
import Idealize.ShloMosaic.Lib.Pipeline.Value
import proofs.«119566_j23124103922098_1_alg».proof.Proof.LibRowwise
import proofs.«119566_j23124103922098_1_alg».proof.Proof.LibColumns

noncomputable section

namespace Cert.LibRowScale

open Idealize.ShloMosaic Idealize.ShloMosaic.ValueIdx

variable {α : Type}

/-- A one-column matrix `[a, 1]` repeated along the rows by a broadcast (`dims = [0, 1]`) reads, at `(p, c)`, the
    column at row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The rows of `g` scaled by the weights kept as a reshaped column are the rows scaled by the weights broadcast twice. -/
theorem rowScale_eq {a b : ℕ} (g : FVec Ideal ⟨2, ![a, b]⟩ .f32) (n : FVec Ideal ⟨1, ![a]⟩ .f32)
    (hc : (⟨1, ![a]⟩ : Shape).ShapeCasts ⟨2, ![a, 1]⟩)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank)) :
    (fun i : (⟨2, ![a, b]⟩ : Shape).Idx => g i * shapeCast ⟨2, ![a, 1]⟩ n hc (ix2 (i 0 : Fin a) (0 : Fin 1)))
      = mulf g (broadcastInDim ⟨2, ![a, b]⟩ ![0, 1] h2 (broadcastInDim ⟨2, ![a, 1]⟩ ![0] h1 n)) := by
  funext i
  obtain ⟨p, c, rfl⟩ : ∃ (p : Fin a) (c : Fin b), i = ix2 p c := ⟨i 0, i 1, eq_ix2 i⟩
  show g (ix2 p c) * shapeCast ⟨2, ![a, 1]⟩ n hc (ix2 p (0 : Fin 1)) = _
  rw [mulf_apply, broadcastInDim_a1_ab_apply, Cert.LibColumns.broadcastInDim_a_a1_apply, Cert.LibRowwise.shapeCast_a_a1_apply]

end Cert.LibRowScale

end
-- ==== Proof.LibMaxAxes.lean ====
/-
  Maxima of an array along an axis that is not the last, at the exact instance and for any extents.

  On the extended reals a maximum-reduction is the fold of `max` from the starting value over the coordinates of the
  reduced axis. Read at an index written by coordinates: the vector unit's maximum of a matrix over its FIRST axis at
  a column (a maximum down the rows), and the host's maximum of a rank-three array over its MIDDLE axis at `(p, q)`.
  The reduced index with a coordinate put back on the dropped axis is `(coordinate, column)`, respectively
  `(p, coordinate, q)`. And one order fact: taking the maximum of a fold of `max` with its own starting value changes
  nothing, since the starting value is below the fold.
-/
import Idealize.ShloMosaic.Lib.ValueIdx
import Idealize.ShloMosaic.PureOps.Ideal.Laws

noncomputable section

namespace Cert.LibMaxAxes

open Idealize.ShloMosaic Idealize.ShloMosaic.ValueIdx

/-- Column `c` with the coordinate `k` put back on the dropped first axis is the matrix index `(k, c)`. -/
theorem lift_firstAxis {a b : ℕ} (h : (⟨2, ![a, b]⟩ : Shape).Reduces [0] ⟨1, ![b]⟩) (c : Fin b) (k : Fin a) :
    h.lift (ix1 c) k = ix2 k c := by
  funext d
  apply Fin.ext
  show h.liftVal (ix1 c) k.val d = _
  unfold Shape.Reduces.liftVal
  match d with
  | ⟨0, _⟩ => exact dif_pos (show (0 : ℕ) = 0 from rfl)
  | ⟨1, _⟩ => exact (dif_neg (show ¬((1 : ℕ) = 0) by omega)).trans (dif_neg (show ¬((1 : ℕ) < 0) by omega))

/-- The index `(p, q)` with the coordinate `k` put back on the dropped middle axis is `(p, k, q)`. -/
theorem lift_midAxis3 {a n b : ℕ} (h : (⟨3, ![a, n, b]⟩ : Shape).Reduces [1] ⟨2, ![a, b]⟩) (p : Fin a) (q : Fin b) (k : Fin n) :
    h.lift (ix2 p q) k = ix3 p k q := by
  funext c
  apply Fin.ext
  show h.liftVal (ix2 p q) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)
  | ⟨2, _⟩ => exact (dif_neg (show ¬((2 : ℕ) = 1) by omega)).trans (dif_neg (show ¬((2 : ℕ) < 1) by omega))

/-- The vector unit's maximum of a matrix over its FIRST axis, at column `c`: the fold of `max` over the column's
    entries, from the accumulator's value. -/
theorem colMax_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) :=
  (Ideal.multiReduction_maximumf_single src acc h hφ hacc (ix1 c)).trans
    (congrArg (fun f => (Finset.univ : Finset (Fin a)).fold max (Ideal.ofBits φ acc) f)
      (funext fun k => congrArg src (lift_firstAxis h c k)))

/-- The host's maximum of an `[a, n, b]` array over its middle axis, at `(p, q)`: the fold of `max` over the entries
    `x (p, k, q)`, from the initial value. -/
theorem hostMax_midAxis3_apply {φ : FTy} {a n b : ℕ} {u : Shape} (x : FVec Ideal ⟨3, ![a, n, b]⟩ φ) (init : u.Idx → Ideal φ)
    (h' : (⟨3, ![a, n, b]⟩ : Shape).ReducesTo [1] ⟨2, ![a, b]⟩) (h : (⟨3, ![a, n, b]⟩ : Shape).Reduces [1] ⟨2, ![a, b]⟩)
    (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) :=
  (Host.reduce_eq_fold_single (FloatOps.maximumf (F := Ideal) (φ := φ)) x init h' h hu (ix2 p q)).trans
    (congrArg (fun f => (Finset.univ : Finset (Fin n)).fold max (init (Shape.Idx.first hu)) f)
      (funext fun k => congrArg x (lift_midAxis3 h p q k)))

/-- The starting value of a fold of `max` is below the fold, so taking the maximum with it again changes nothing. -/
theorem max_fold_max_self {ι : Type*} (s : Finset ι) (b : EReal) (f : ι → EReal) :
    max b (s.fold max b f) = s.fold max b f :=
  max_eq_right (Finset.le_fold_max (b := b) (f := f) (s := s) b |>.mpr (Or.inl le_rfl))

end Cert.LibMaxAxes

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«119566_j23124103922098_1_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibGcnHost.lean ====
/-
  A graph-convolution layer's epilogue in the host's spelling, read at an entry — at the exact instance, for any extents.

  The same layer as Proof/LibGcnEpilogue.lean specifies by coordinates (`conv`, `reluDense`, `logSoftmax`), as a host
  program writes it: the self-loop weights a VECTOR, made a column and repeated along the rows by two
  `broadcast_in_dim`s, the bias a vector made a row and repeated down the rows, the rectifier a maximum against a
  broadcast zero, the projection a `dot_general`, the row maximum a `reduce` from −∞ taken once more against −∞ (which
  changes nothing: a fold of `max` from −∞ is at least −∞), the row sum a `reduce` from 0 (and 0 + x = x).
  Each reads, at an entry, as the specification at the vector unit's operands: the column [a, 1] and the row [1, b] that
  a reshape of the two vectors gives.
-/
import Idealize.ShloMosaic.Lib.ValueLayout
import Idealize.ShloMosaic.Lib.IdealHost
import Idealize.ShloMosaic.PureOps.Ideal.Laws
import proofs.«119566_j23124103922098_1_alg».proof.Proof.LibGcnEpilogue
import proofs.«119566_j23124103922098_1_alg».proof.Proof.LibColumns
import proofs.«119566_j23124103922098_1_alg».proof.Proof.LibRowScale
import proofs.«119566_j23124103922098_1_alg».proof.Proof.LibMaxAxes
import proofs.«119566_j23124103922098_1_alg».proof.Proof.LibHostStack

noncomputable section

namespace Cert.LibGcnHost

open Idealize.ShloMosaic Idealize.ShloMosaic.ValueIdx Cert.LibGcnEpilogue
open scoped BigOperators

variable {a b n : ℕ}

/-- A scalar repeated over any shape reads the scalar. -/
theorem scalar_apply {α : Type} {s : Shape} (h : (⟨0, ![]⟩ : Shape).BroadcastsInDim s (![] : Fin 0 → Fin s.rank))
    (y : (⟨0, ![]⟩ : Shape).Idx → α) (i : s.Idx) : broadcastInDim s ![] h y i = y ix0 :=
  broadcastInDim_apply _ h y i ix0 (fun ax => ax.elim0)

/-- `A + bcast(bcast sc) * X + bcast(bcast bias)` as the host spells it. -/
def hostConv (A X : FVec Ideal ⟨2, ![a, b]⟩ .f32) (sc : FVec Ideal ⟨1, ![a]⟩ .f32) (bias : FVec Ideal ⟨1, ![b]⟩ .f32)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (h3 : (⟨1, ![b]⟩ : Shape).BroadcastsInDim ⟨2, ![1, b]⟩ (![1] : Fin 1 → Fin (⟨2, ![1, b]⟩ : Shape).rank))
    (h4 : (⟨2, ![1, b]⟩ : Shape).BroadcastsInDim ⟨2, ![a, b]⟩ (![0, 1] : Fin 2 → Fin (⟨2, ![a, b]⟩ : Shape).rank)) :
    FVec Ideal ⟨2, ![a, b]⟩ .f32 :=
  addf (addf A (mulf (broadcastInDim ⟨2, ![a, b]⟩ ![0, 1] h2 (broadcastInDim ⟨2, ![a, 1]⟩ ![0] h1 sc)) X))
    (broadcastInDim ⟨2, ![a, b]⟩ ![0, 1] h4 (broadcastInDim ⟨2, ![1, b]⟩ ![1] h3 bias))

variable (A X : FVec Ideal ⟨2, ![a, b]⟩ .f32) (sc : FVec Ideal ⟨1, ![a]⟩ .f32) (bias : FVec Ideal ⟨1, ![b]⟩ .f32)
  (h1 : (⟨1, ![a]⟩ : Shape).BroadcastsInDim ⟨2, ![a, 1]⟩ (![0] : Fin 1 → Fin (⟨2, ![a, 1]⟩ : Shape).rank))
  (h2 : (⟨2, ![a, 1]⟩ : Shape).BroadcastsInDim ⟨2, ![a, b]⟩ (![0, 1] : Fin 2 → Fin (⟨2, ![a, b]⟩ : Shape).rank))
  (h3 : (⟨1, ![b]⟩ : Shape).BroadcastsInDim ⟨2, ![1, b]⟩ (![1] : Fin 1 → Fin (⟨2, ![1, b]⟩ : Shape).rank))
  (h4 : (⟨2, ![1, b]⟩ : Shape).BroadcastsInDim ⟨2, ![a, b]⟩ (![0, 1] : Fin 2 → Fin (⟨2, ![a, b]⟩ : Shape).rank))
  (hc1 : (⟨1, ![a]⟩ : Shape).ShapeCasts ⟨2, ![a, 1]⟩) (hc2 : (⟨1, ![b]⟩ : Shape).ShapeCasts ⟨2, ![1, b]⟩)

/-- The host's pre-activation at (p, k) is the specification's, at the reshaped vectors. -/
theorem hostConv_apply (p : Fin a) (k : Fin b) :
    hostConv A X sc bias h1 h2 h3 h4 (ix2 p k)
      = conv A X (shapeCast ⟨2, ![a, 1]⟩ sc hc1) (shapeCast ⟨2, ![1, b]⟩ bias hc2) p k := by
  show (A (ix2 p k) + broadcastInDim ⟨2, ![a, b]⟩ ![0, 1] h2 (broadcastInDim ⟨2, ![a, 1]⟩ ![0] h1 sc) (ix2 p k) * X (ix2 p k))
      + broadcastInDim ⟨2, ![a, b]⟩ ![0, 1] h4 (broadcastInDim ⟨2, ![1, b]⟩ ![1] h3 bias) (ix2 p k) = _
  rw [Cert.LibRowScale.broadcastInDim_a1_ab_apply, Cert.LibColumns.broadcastInDim_a_a1_apply, Cert.LibColumns.perColumnHost_apply]
  unfold conv
  rw [Cert.LibRowwise.shapeCast_a_a1_apply, shapeCast_a_1a_apply]

/-- The host's rectifier and projection at (p, q). -/
theorem hostReluDense_apply (W : FVec Ideal ⟨2, ![b, n]⟩ .f32)
    (h0 : (⟨0, ![]⟩ : Shape).BroadcastsInDim ⟨2, ![a, b]⟩ (![] : Fin 0 → Fin (⟨2, ![a, b]⟩ : Shape).rank))
    (p : Fin a) (q : Fin n) :
    Host.dotGeneral (DotDims.plain a b n) none
        (maximumf (hostConv A X sc bias h1 h2 h3 h4) (broadcastInDim ⟨2, ![a, b]⟩ ![] h0 (constant ⟨0, ![]⟩ .f32 0x00000000#32))) W (ix2 p q)
      = reluDense A X (shapeCast ⟨2, ![a, 1]⟩ sc hc1) (shapeCast ⟨2, ![1, b]⟩ bias hc2) W p q := by
  refine (Cert.LibHostStack.dotGeneral_plain_apply _ W p q).trans ?_
  refine Finset.sum_congr rfl fun k _ => ?_
  show max (hostConv A X sc bias h1 h2 h3 h4 (ix2 p k))
      (broadcastInDim ⟨2, ![a, b]⟩ ![] h0 (constant ⟨0, ![]⟩ .f32 0x00000000#32) (ix2 p k)) * W (ix2 k q) = _
  rw [hostConv_apply A X sc bias h1 h2 h3 h4 hc1 hc2, scalar_apply]
  show max _ (Ideal.ofBits .f32 0x00000000#32) * _ = _
  rw [Ideal.ofBits_zero_f32]

/-- The host's guarded row maximum, kept as a column and repeated along the row. -/
def hostRowMaxB (z : FVec Ideal ⟨2, ![a, b]⟩ .f32)
    (hb0 : (⟨0, ![]⟩ : Shape).BroadcastsInDim ⟨1, ![a]⟩ (![] : Fin 0 → Fin (⟨1, ![a]⟩ : Shape).rank))
    (hrt : (⟨2, ![a, b]⟩ : Shape).ReducesTo [1] ⟨1, ![a]⟩) (hu : 0 < (⟨0, ![]⟩ : Shape).numel) : FVec Ideal ⟨2, ![a, b]⟩ .f32 :=
  broadcastInDim ⟨2, ![a, b]⟩ ![0, 1] h2 (broadcastInDim ⟨2, ![a, 1]⟩ ![0] h1
    (maximumf (broadcastInDim ⟨1, ![a]⟩ ![] hb0 (constant ⟨0, ![]⟩ .f32 0xFF800000#32))
      (Host.reduce FloatOps.maximumf z (constant ⟨0, ![]⟩ .f32 0xFF800000#32) hrt hu)))

/-- The host's row-wise log-softmax of the pre-activation, at (p, c). -/
theorem hostLogSoftmax_apply
    (hb0 : (⟨0, ![]⟩ : Shape).BroadcastsInDim ⟨1, ![a]⟩ (![] : Fin 0 → Fin (⟨1, ![a]⟩ : Shape).rank))
    (hrt : (⟨2, ![a, b]⟩ : Shape).ReducesTo [1] ⟨1, ![a]⟩) (hred : (⟨2, ![a, b]⟩ : Shape).Reduces [1] ⟨1, ![a]⟩)
    (hu : 0 < (⟨0, ![]⟩ : Shape).numel) (p : Fin a) (c : Fin b) :
    subf (subf (hostConv A X sc bias h1 h2 h3 h4) (hostRowMaxB h1 h2 (hostConv A X sc bias h1 h2 h3 h4) hb0 hrt hu))
      (broadcastInDim ⟨2, ![a, b]⟩ ![0, 1] h2 (Host.log (broadcastInDim ⟨2, ![a, 1]⟩ ![0] h1
        (Host.reduceAdd (Host.exp (subf (hostConv A X sc bias h1 h2 h3 h4) (hostRowMaxB h1 h2 (hostConv A X sc bias h1 h2 h3 h4) hb0 hrt hu)))
          (constant ⟨0, ![]⟩ .f32 0x00000000#32) hrt hu)))) (ix2 p c)
      = logSoftmax A X (shapeCast ⟨2, ![a, 1]⟩ sc hc1) (shapeCast ⟨2, ![1, b]⟩ bias hc2) p c := by
  have hM : ∀ k : Fin b, hostRowMaxB h1 h2 (hostConv A X sc bias h1 h2 h3 h4) hb0 hrt hu (ix2 p k)
      = rowMax A X (shapeCast ⟨2, ![a, 1]⟩ sc hc1) (shapeCast ⟨2, ![1, b]⟩ bias hc2) p := fun k => by
    unfold hostRowMaxB
    rw [Cert.LibRowScale.broadcastInDim_a1_ab_apply, Cert.LibColumns.broadcastInDim_a_a1_apply]
    show max (broadcastInDim ⟨1, ![a]⟩ ![] hb0 (constant ⟨0, ![]⟩ .f32 0xFF800000#32) (ix1 p))
        (Host.reduce FloatOps.maximumf (hostConv A X sc bias h1 h2 h3 h4) (constant ⟨0, ![]⟩ .f32 0xFF800000#32) hrt hu (ix1 p)) = _
    rw [scalar_apply, Cert.LibRowwise.hostRowMax_apply _ _ hrt hred hu p]
    show max (Ideal.ofBits .f32 0xFF800000#32)
        ((Finset.univ : Finset (Fin b)).fold max (Ideal.ofBits .f32 0xFF800000#32) fun k' => hostConv A X sc bias h1 h2 h3 h4 (ix2 p k')) = _
    rw [Cert.LibMaxAxes.max_fold_max_self]
    unfold rowMax
    exact congrArg (fun f => (Finset.univ : Finset (Fin b)).fold max (Ideal.ofBits .f32 0xFF800000#32) f)
      (funext fun k' => hostConv_apply A X sc bias h1 h2 h3 h4 hc1 hc2 p k')
  have hsh : ∀ k : Fin b, subf (hostConv A X sc bias h1 h2 h3 h4) (hostRowMaxB h1 h2 (hostConv A X sc bias h1 h2 h3 h4) hb0 hrt hu) (ix2 p k)
      = conv A X (shapeCast ⟨2, ![a, 1]⟩ sc hc1) (shapeCast ⟨2, ![1, b]⟩ bias hc2) p k
        - rowMax A X (shapeCast ⟨2, ![a, 1]⟩ sc hc1) (shapeCast ⟨2, ![1, b]⟩ bias hc2) p := fun k =>
    congrArg₂ (fun u v : EReal => u - v) (hostConv_apply A X sc bias h1 h2 h3 h4 hc1 hc2 p k) (hM k)
  unfold logSoftmax
  refine congrArg₂ (fun u v : EReal => u - v) (hsh c) ?_
  refine (Cert.LibRowScale.broadcastInDim_a1_ab_apply _ h2 p c).trans ?_
  refine congrArg Ideal.log ?_
  refine (Cert.LibColumns.broadcastInDim_a_a1_apply _ h1 p 0).trans ?_
  refine (Cert.LibRowwise.hostRowSum_apply _ _ hrt hred hu p).trans ?_
  show Ideal.ofBits .f32 0x00000000#32 + _ = _
  rw [Ideal.ofBits_zero_f32, zero_add]
  refine Finset.sum_congr rfl fun k _ => ?_
  exact congrArg Ideal.exp (hsh k)

end Cert.LibGcnHost

end
-- ==== Proof.Bridge.lean ====
/-
  Kernel by kernel, the array a kernel leaves is the host's stage function of the arrays it was given.

  Each of the four kernels computes, band of rows by band of rows, one function of whole arrays
  (Proof/RegionLinear.lean, RegionHidden1.lean, RegionHidden2.lean, RegionOutput.lean). Here each of those functions is
  identified with the reference's spelling of the same layer on the host (Proof/GcnStages.lean), entry by entry:

    * the first kernel's product is the host's `dot_general` — both are Σ_k x (r, k) · w (k, q);
    * a fused kernel's "rectified pre-activation times the next weights" is the host's `dot_general` of the rectified
      pre-activation, when the kernel is handed the self-loop weights and the bias as the reshaped vectors the host
      broadcasts — both are Σ_k max (A (r, k) + s r · X (r, k) + b k, 0) · W (k, q);
    * the last kernel's shifted log-softmax is the host's, whose row maximum is taken once more against −∞ and whose row sum
      starts from 0.

  No finiteness is used: the two sides are the same expression at every entry, over the extended reals.
-/
import proofs.«119566_j23124103922098_1_alg».proof.Proof.GcnStages
import proofs.«119566_j23124103922098_1_alg».proof.Proof.RegionLinear
import proofs.«119566_j23124103922098_1_alg».proof.Proof.RegionHidden1
import proofs.«119566_j23124103922098_1_alg».proof.Proof.RegionHidden2
import proofs.«119566_j23124103922098_1_alg».proof.Proof.RegionOutput
import proofs.«119566_j23124103922098_1_alg».proof.Proof.LibGcnHost

set_option maxRecDepth 16384

noncomputable section

namespace Cert.Bridge

open Idealize.ShloMosaic Idealize.ShloMosaic.ValueIdx
open scoped BigOperators

/-- The first kernel's product of the whole arrays is the host's projection. -/
theorem proj1_eq (x : FVec Ideal ⟨2, ![100000, 256]⟩ .f32) (w : FVec Ideal ⟨2, ![256, 16]⟩ .f32) :
    Cert.KernelIdeal.Linear.prod x w = Cert.Gcn.proj1 (F := Ideal) x w := by
  funext i
  obtain ⟨p, q, rfl⟩ : ∃ (p : Fin 100000) (q : Fin 16), i = ix2 p q := ⟨i 0, i 1, eq_ix2 i⟩
  exact (Cert.LibHostStack.dotGeneral_plain_apply (M := 100000) (K := 256) (N := 16) x w p q).symm

/-- The second kernel's function, at the reshaped self-loop weights and bias, is the host's second projection of the first
    hidden layer. -/
theorem hidden1_eq (A X : FVec Ideal ⟨2, ![100000, 16]⟩ .f32) (sc : FVec Ideal ⟨1, ![100000]⟩ .f32)
    (bias : FVec Ideal ⟨1, ![16]⟩ .f32) (W : FVec Ideal ⟨2, ![16, 16]⟩ .f32)
    (hc1 : (⟨1, ![100000]⟩ : Shape).ShapeCasts ⟨2, ![100000, 1]⟩) (hc2 : (⟨1, ![16]⟩ : Shape).ShapeCasts ⟨2, ![1, 16]⟩) :
    Cert.KernelIdeal.Hidden1.spec A X (shapeCast ⟨2, ![100000, 1]⟩ sc hc1) (shapeCast ⟨2, ![1, 16]⟩ bias hc2) W
      = Cert.Gcn.proj2 (F := Ideal) (Cert.Gcn.relu16 (Cert.Gcn.conv16 A X sc bias)) W := by
  funext i
  obtain ⟨p, q, rfl⟩ : ∃ (p : Fin 100000) (q : Fin 16), i = ix2 p q := ⟨i 0, i 1, eq_ix2 i⟩
  exact (Cert.LibGcnHost.hostReluDense_apply (a := 100000) (b := 16) (n := 16) A X sc bias _ _ _ _ hc1 hc2 W _ p q).symm

/-- The third kernel's function, at the reshaped self-loop weights and bias, is the host's third projection of the second
    hidden layer. -/
theorem hidden2_eq (A X : FVec Ideal ⟨2, ![100000, 16]⟩ .f32) (sc : FVec Ideal ⟨1, ![100000]⟩ .f32)
    (bias : FVec Ideal ⟨1, ![16]⟩ .f32) (W : FVec Ideal ⟨2, ![16, 8]⟩ .f32)
    (hc1 : (⟨1, ![100000]⟩ : Shape).ShapeCasts ⟨2, ![100000, 1]⟩) (hc2 : (⟨1, ![16]⟩ : Shape).ShapeCasts ⟨2, ![1, 16]⟩) :
    Cert.KernelIdeal.Hidden2.spec A X (shapeCast ⟨2, ![100000, 1]⟩ sc hc1) (shapeCast ⟨2, ![1, 16]⟩ bias hc2) W
      = Cert.Gcn.proj3 (F := Ideal) (Cert.Gcn.relu16 (Cert.Gcn.conv16 A X sc bias)) W := by
  funext i
  obtain ⟨p, q, rfl⟩ : ∃ (p : Fin 100000) (q : Fin 8), i = ix2 p q := ⟨i 0, i 1, eq_ix2 i⟩
  exact (Cert.LibGcnHost.hostReluDense_apply (a := 100000) (b := 16) (n := 8) A X sc bias _ _ _ _ hc1 hc2 W _ p q).symm

/-- The fourth kernel's function, at the reshaped self-loop weights and bias, is the host's log-softmax of the third layer's
    pre-activation. -/
theorem output_eq (A X : FVec Ideal ⟨2, ![100000, 8]⟩ .f32) (sc : FVec Ideal ⟨1, ![100000]⟩ .f32)
    (bias : FVec Ideal ⟨1, ![8]⟩ .f32)
    (hc1 : (⟨1, ![100000]⟩ : Shape).ShapeCasts ⟨2, ![100000, 1]⟩) (hc2 : (⟨1, ![8]⟩ : Shape).ShapeCasts ⟨2, ![1, 8]⟩) :
    Cert.KernelIdeal.Output.spec A X (shapeCast ⟨2, ![100000, 1]⟩ sc hc1) (shapeCast ⟨2, ![1, 8]⟩ bias hc2)
      = Cert.Gcn.logSoftmax8 (F := Ideal) (Cert.Gcn.conv8 A X sc bias) := by
  funext i
  obtain ⟨p, q, rfl⟩ : ∃ (p : Fin 100000) (q : Fin 8), i = ix2 p q := ⟨i 0, i 1, eq_ix2 i⟩
  exact (Cert.LibGcnHost.hostLogSoftmax_apply (a := 100000) (b := 8) A X sc bias _ _ _ _ hc1 hc2 _ _ (by decide) _ p q).symm

end Cert.Bridge

end
-- ==== Proof.KernelValue.lean ====
/-
  What the idealized kernel's result array holds when @main returns.

  The contents of every buffer at the eight segment boundaries of @main are a fold from the launch memory
  (`Gen.W1 … Gen.W8`). This file walks that fold for the few buffers the network's value passes through: after the first
  host stretch the edges' sources and targets, the edge weights and the self-loop weights are the stage functions of the
  edge array (Proof/GcnStages.lean); a kernel leaves its result at the stage function of what it was given
  (Proof/Region*.lean and Proof/Bridge.lean) and every other buffer as it was; a host stretch computes the next layer's
  aggregate, reshapes the bias and the self-loop weights, and leaves the rest. At the last boundary the result buffer holds
  `Gcn.net` of the eight argument arrays.
-/
import proofs.«119566_j23124103922098_1_alg».proof.Proof.Gen.KernelIdeal.Frame
import proofs.«119566_j23124103922098_1_alg».proof.Proof.Bridge
import Idealize.ShloMosaic.Lib.StableHlo.Run

set_option maxRecDepth 16384
set_option maxHeartbeats 1000000

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem f1_v1 : W1 m ρ c (Proc.devRef .tc main_v1) = (Cert.Gcn.src (m ((c : Thread nD τ).loc main_arg1))) := by
  show StableHlo.after hostOps0 (W0 m ρ c) (Proc.devRef .tc main_v1) = _
  dsimp only [hostOps0]
  after_results_simp
  rfl

theorem f1_v3 : W1 m ρ c (Proc.devRef .tc main_v3) = (Cert.Gcn.dst (m ((c : Thread nD τ).loc main_arg1))) := by
  show StableHlo.after hostOps0 (W0 m ρ c) (Proc.devRef .tc main_v3) = _
  dsimp only [hostOps0]
  after_results_simp
  rfl

theorem f1_v25 : W1 m ρ c (Proc.devRef .tc main_v25) = (Cert.Gcn.normE (Cert.Gcn.src (m ((c : Thread nD τ).loc main_arg1))) (Cert.Gcn.dst (m ((c : Thread nD τ).loc main_arg1)))) := by
  show StableHlo.after hostOps0 (W0 m ρ c) (Proc.devRef .tc main_v25) = _
  dsimp only [hostOps0]
  after_results_simp
  rfl

theorem f1_v26 : W1 m ρ c (Proc.devRef .tc main_v26) = (Cert.Gcn.selfC (Cert.Gcn.dst (m ((c : Thread nD τ).loc main_arg1)))) := by
  show StableHlo.after hostOps0 (W0 m ρ c) (Proc.devRef .tc main_v26) = _
  dsimp only [hostOps0]
  after_results_simp
  rfl

theorem f1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp

theorem f1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp

theorem f1_arg3 : W1 m ρ c (Proc.devRef .tc main_arg3) = (m ((c : Thread nD τ).loc main_arg3)) := by
  show StableHlo.after hostOps0 (W0 m ρ c) (Proc.devRef .tc main_arg3) = _
  dsimp only [hostOps0]
  after_results_simp

theorem f1_arg4 : W1 m ρ c (Proc.devRef .tc main_arg4) = (m ((c : Thread nD τ).loc main_arg4)) := by
  show StableHlo.after hostOps0 (W0 m ρ c) (Proc.devRef .tc main_arg4) = _
  dsimp only [hostOps0]
  after_results_simp

theorem f1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp

theorem f1_arg6 : W1 m ρ c (Proc.devRef .tc main_arg6) = (m ((c : Thread nD τ).loc main_arg6)) := by
  show StableHlo.after hostOps0 (W0 m ρ c) (Proc.devRef .tc main_arg6) = _
  dsimp only [hostOps0]
  after_results_simp

theorem f1_arg7 : W1 m ρ c (Proc.devRef .tc main_arg7) = (m ((c : Thread nD τ).loc main_arg7)) := by
  show StableHlo.after hostOps0 (W0 m ρ c) (Proc.devRef .tc main_arg7) = _
  dsimp only [hostOps0]
  after_results_simp

theorem f2_v27 : W2 m ρ c (Proc.devRef .tc main_v27) = (Cert.Gcn.proj1 (m ((c : Thread nD τ).loc main_arg0)) (m ((c : Thread nD τ).loc main_arg2))) :=
  (W2_arr m ρ c 2).trans ((Cert.KernelIdeal.Linear.final (V1 m ρ) c).trans
    ((congrArg₂ Cert.KernelIdeal.Linear.prod (f1_arg0 m ρ c) (f1_arg2 m ρ c)).trans (Cert.Bridge.proj1_eq _ _)))

theorem f2_v1 : W2 m ρ c (Proc.devRef .tc main_v1) = (Cert.Gcn.src (m ((c : Thread nD τ).loc main_arg1))) := (W2_of_ne m ρ c main_v1 (by decide)).trans (f1_v1 m ρ c)

theorem f2_v3 : W2 m ρ c (Proc.devRef .tc main_v3) = (Cert.Gcn.dst (m ((c : Thread nD τ).loc main_arg1))) := (W2_of_ne m ρ c main_v3 (by decide)).trans (f1_v3 m ρ c)

theorem f2_v25 : W2 m ρ c (Proc.devRef .tc main_v25) = (Cert.Gcn.normE (Cert.Gcn.src (m ((c : Thread nD τ).loc main_arg1))) (Cert.Gcn.dst (m ((c : Thread nD τ).loc main_arg1)))) := (W2_of_ne m ρ c main_v25 (by decide)).trans (f1_v25 m ρ c)

theorem f2_v26 : W2 m ρ c (Proc.devRef .tc main_v26) = (Cert.Gcn.selfC (Cert.Gcn.dst (m ((c : Thread nD τ).loc main_arg1)))) := (W2_of_ne m ρ c main_v26 (by decide)).trans (f1_v26 m ρ c)

theorem f2_arg3 : W2 m ρ c (Proc.devRef .tc main_arg3) = (m ((c : Thread nD τ).loc main_arg3)) := (W2_of_ne m ρ c main_arg3 (by decide)).trans (f1_arg3 m ρ c)

theorem f2_arg4 : W2 m ρ c (Proc.devRef .tc main_arg4) = (m ((c : Thread nD τ).loc main_arg4)) := (W2_of_ne m ρ c main_arg4 (by decide)).trans (f1_arg4 m ρ c)

theorem f2_arg5 : W2 m ρ c (Proc.devRef .tc main_arg5) = (m ((c : Thread nD τ).loc main_arg5)) := (W2_of_ne m ρ c main_arg5 (by decide)).trans (f1_arg5 m ρ c)

theorem f2_arg6 : W2 m ρ c (Proc.devRef .tc main_arg6) = (m ((c : Thread nD τ).loc main_arg6)) := (W2_of_ne m ρ c main_arg6 (by decide)).trans (f1_arg6 m ρ c)

theorem f2_arg7 : W2 m ρ c (Proc.devRef .tc main_arg7) = (m ((c : Thread nD τ).loc main_arg7)) := (W2_of_ne m ρ c main_arg7 (by decide)).trans (f1_arg7 m ρ c)

theorem f3_v40 : W3 m ρ c (Proc.devRef .tc main_v40) = (Cert.Gcn.agg16 (Cert.Gcn.src (m ((c : Thread nD τ).loc main_arg1))) (Cert.Gcn.dst (m ((c : Thread nD τ).loc main_arg1))) (Cert.Gcn.normE (Cert.Gcn.src (m ((c : Thread nD τ).loc main_arg1))) (Cert.Gcn.dst (m ((c : Thread nD τ).loc main_arg1)))) (Cert.Gcn.proj1 (m ((c : Thread nD τ).loc main_arg0)) (m ((c : Thread nD τ).loc main_arg2)))) := by
  show StableHlo.after hostOps1 (W2 m ρ c) (Proc.devRef .tc main_v40) = _
  dsimp only [hostOps1]
  after_results_simp
  simp only [f2_v1 m ρ c, f2_v3 m ρ c, f2_v25 m ρ c, f2_v27 m ρ c]
  rfl

theorem f3_v41 : W3 m ρ c (Proc.devRef .tc main_v41) = (shapeCast S1x16 (m ((c : Thread nD τ).loc main_arg3)) shapeCasts_S16_S1x16) := by
  show StableHlo.after hostOps1 (W2 m ρ c) (Proc.devRef .tc main_v41) = _
  dsimp only [hostOps1]
  after_results_simp
  simp only [f2_arg3 m ρ c]
  rfl

theorem f3_v42 : W3 m ρ c (Proc.devRef .tc main_v42) = (shapeCast S100000x1 (Cert.Gcn.selfC (Cert.Gcn.dst (m ((c : Thread nD τ).loc main_arg1)))) shapeCasts_S100000_S100000x1) := by
  show StableHlo.after hostOps1 (W2 m ρ c) (Proc.devRef .tc main_v42) = _
  dsimp only [hostOps1]
  after_results_simp
  simp only [f2_v26 m ρ c]
  rfl

theorem f3_v27 : W3 m ρ c (Proc.devRef .tc main_v27) = (Cert.Gcn.proj1 (m ((c : Thread nD τ).loc main_arg0)) (m ((c : Thread nD τ).loc main_arg2))) := by
  show StableHlo.after hostOps1 (W2 m ρ c) (Proc.devRef .tc main_v27) = _
  dsimp only [hostOps1]
  after_results_simp
  exact f2_v27 m ρ c

theorem f3_arg4 : W3 m ρ c (Proc.devRef .tc main_arg4) = (m ((c : Thread nD τ).loc main_arg4)) := by
  show StableHlo.after hostOps1 (W2 m ρ c) (Proc.devRef .tc main_arg4) = _
  dsimp only [hostOps1]
  after_results_simp
  exact f2_arg4 m ρ c

theorem f3_v1 : W3 m ρ c (Proc.devRef .tc main_v1) = (Cert.Gcn.src (m ((c : Thread nD τ).loc main_arg1))) := by
  show StableHlo.after hostOps1 (W2 m ρ c) (Proc.devRef .tc main_v1) = _
  dsimp only [hostOps1]
  after_results_simp
  exact f2_v1 m ρ c

theorem f3_v3 : W3 m ρ c (Proc.devRef .tc main_v3) = (Cert.Gcn.dst (m ((c : Thread nD τ).loc main_arg1))) := by
  show StableHlo.after hostOps1 (W2 m ρ c) (Proc.devRef .tc main_v3) = _
  dsimp only [hostOps1]
  after_results_simp
  exact f2_v3 m ρ c

theorem f3_v25 : W3 m ρ c (Proc.devRef .tc main_v25) = (Cert.Gcn.normE (Cert.Gcn.src (m ((c : Thread nD τ).loc main_arg1))) (Cert.Gcn.dst (m ((c : Thread nD τ).loc main_arg1)))) := by
  show StableHlo.after hostOps1 (W2 m ρ c) (Proc.devRef .tc main_v25) = _
  dsimp only [hostOps1]
  after_results_simp
  exact f2_v25 m ρ c

theorem f3_v26 : W3 m ρ c (Proc.devRef .tc main_v26) = (Cert.Gcn.selfC (Cert.Gcn.dst (m ((c : Thread nD τ).loc main_arg1)))) := by
  show StableHlo.after hostOps1 (W2 m ρ c) (Proc.devRef .tc main_v26) = _
  dsimp only [hostOps1]
  after_results_simp
  exact f2_v26 m ρ c

theorem f3_arg5 : W3 m ρ c (Proc.devRef .tc main_arg5) = (m ((c : Thread nD τ).loc main_arg5)) := by
  show StableHlo.after hostOps1 (W2 m ρ c) (Proc.devRef .tc main_arg5) = _
  dsimp only [hostOps1]
  after_results_simp
  exact f2_arg5 m ρ c

theorem f3_arg6 : W3 m ρ c (Proc.devRef .tc main_arg6) = (m ((c : Thread nD τ).loc main_arg6)) := by
  show StableHlo.after hostOps1 (W2 m ρ c) (Proc.devRef .tc main_arg6) = _
  dsimp only [hostOps1]
  after_results_simp
  exact f2_arg6 m ρ c

theorem f3_arg7 : W3 m ρ c (Proc.devRef .tc main_arg7) = (m ((c : Thread nD τ).loc main_arg7)) := by
  show StableHlo.after hostOps1 (W2 m ρ c) (Proc.devRef .tc main_arg7) = _
  dsimp only [hostOps1]
  after_results_simp
  exact f2_arg7 m ρ c

theorem f4_v43 : W4 m ρ c (Proc.devRef .tc main_v43) = (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4))) := by
  refine (W4_arr m ρ c 5).trans ((Cert.KernelIdeal.Hidden1.final (V3 m ρ) c).trans ?_)
  show Cert.KernelIdeal.Hidden1.spec (W3 m ρ c (Proc.devRef .tc main_v40)) (W3 m ρ c (Proc.devRef .tc main_v27)) (W3 m ρ c (Proc.devRef .tc main_v42)) (W3 m ρ c (Proc.devRef .tc main_v41)) (W3 m ρ c (Proc.devRef .tc main_arg4)) = _
  rw [f3_v40 m ρ c, f3_v27 m ρ c, f3_v42 m ρ c, f3_v41 m ρ c, f3_arg4 m ρ c]
  exact Cert.Bridge.hidden1_eq _ _ _ _ _ _ _

theorem f4_v1 : W4 m ρ c (Proc.devRef .tc main_v1) = (Cert.Gcn.src (m ((c : Thread nD τ).loc main_arg1))) := (W4_of_ne m ρ c main_v1 (by decide)).trans (f3_v1 m ρ c)

theorem f4_v3 : W4 m ρ c (Proc.devRef .tc main_v3) = (Cert.Gcn.dst (m ((c : Thread nD τ).loc main_arg1))) := (W4_of_ne m ρ c main_v3 (by decide)).trans (f3_v3 m ρ c)

theorem f4_v25 : W4 m ρ c (Proc.devRef .tc main_v25) = (Cert.Gcn.normE (Cert.Gcn.src (m ((c : Thread nD τ).loc main_arg1))) (Cert.Gcn.dst (m ((c : Thread nD τ).loc main_arg1)))) := (W4_of_ne m ρ c main_v25 (by decide)).trans (f3_v25 m ρ c)

theorem f4_v26 : W4 m ρ c (Proc.devRef .tc main_v26) = (Cert.Gcn.selfC (Cert.Gcn.dst (m ((c : Thread nD τ).loc main_arg1)))) := (W4_of_ne m ρ c main_v26 (by decide)).trans (f3_v26 m ρ c)

theorem f4_arg5 : W4 m ρ c (Proc.devRef .tc main_arg5) = (m ((c : Thread nD τ).loc main_arg5)) := (W4_of_ne m ρ c main_arg5 (by decide)).trans (f3_arg5 m ρ c)

theorem f4_arg6 : W4 m ρ c (Proc.devRef .tc main_arg6) = (m ((c : Thread nD τ).loc main_arg6)) := (W4_of_ne m ρ c main_arg6 (by decide)).trans (f3_arg6 m ρ c)

theorem f4_arg7 : W4 m ρ c (Proc.devRef .tc main_arg7) = (m ((c : Thread nD τ).loc main_arg7)) := (W4_of_ne m ρ c main_arg7 (by decide)).trans (f3_arg7 m ρ c)

theorem f5_v56 : W5 m ρ c (Proc.devRef .tc main_v56) = (Cert.Gcn.agg16 (Cert.Gcn.src (m ((c : Thread nD τ).loc main_arg1))) (Cert.Gcn.dst (m ((c : Thread nD τ).loc main_arg1))) (Cert.Gcn.normE (Cert.Gcn.src (m ((c : Thread nD τ).loc main_arg1))) (Cert.Gcn.dst (m ((c : Thread nD τ).loc main_arg1)))) (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4)))) := by
  show StableHlo.after hostOps2 (W4 m ρ c) (Proc.devRef .tc main_v56) = _
  dsimp only [hostOps2]
  after_results_simp
  simp only [f4_v1 m ρ c, f4_v3 m ρ c, f4_v25 m ρ c, f4_v43 m ρ c]
  rfl

theorem f5_v57 : W5 m ρ c (Proc.devRef .tc main_v57) = (shapeCast S1x16 (m ((c : Thread nD τ).loc main_arg5)) shapeCasts_S16_S1x16) := by
  show StableHlo.after hostOps2 (W4 m ρ c) (Proc.devRef .tc main_v57) = _
  dsimp only [hostOps2]
  after_results_simp
  simp only [f4_arg5 m ρ c]
  rfl

theorem f5_v58 : W5 m ρ c (Proc.devRef .tc main_v58) = (shapeCast S100000x1 (Cert.Gcn.selfC (Cert.Gcn.dst (m ((c : Thread nD τ).loc main_arg1)))) shapeCasts_S100000_S100000x1) := by
  show StableHlo.after hostOps2 (W4 m ρ c) (Proc.devRef .tc main_v58) = _
  dsimp only [hostOps2]
  after_results_simp
  simp only [f4_v26 m ρ c]
  rfl

theorem f5_v43 : W5 m ρ c (Proc.devRef .tc main_v43) = (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4))) := by
  show StableHlo.after hostOps2 (W4 m ρ c) (Proc.devRef .tc main_v43) = _
  dsimp only [hostOps2]
  after_results_simp
  exact f4_v43 m ρ c

theorem f5_arg6 : W5 m ρ c (Proc.devRef .tc main_arg6) = (m ((c : Thread nD τ).loc main_arg6)) := by
  show StableHlo.after hostOps2 (W4 m ρ c) (Proc.devRef .tc main_arg6) = _
  dsimp only [hostOps2]
  after_results_simp
  exact f4_arg6 m ρ c

theorem f5_v1 : W5 m ρ c (Proc.devRef .tc main_v1) = (Cert.Gcn.src (m ((c : Thread nD τ).loc main_arg1))) := by
  show StableHlo.after hostOps2 (W4 m ρ c) (Proc.devRef .tc main_v1) = _
  dsimp only [hostOps2]
  after_results_simp
  exact f4_v1 m ρ c

theorem f5_v3 : W5 m ρ c (Proc.devRef .tc main_v3) = (Cert.Gcn.dst (m ((c : Thread nD τ).loc main_arg1))) := by
  show StableHlo.after hostOps2 (W4 m ρ c) (Proc.devRef .tc main_v3) = _
  dsimp only [hostOps2]
  after_results_simp
  exact f4_v3 m ρ c

theorem f5_v25 : W5 m ρ c (Proc.devRef .tc main_v25) = (Cert.Gcn.normE (Cert.Gcn.src (m ((c : Thread nD τ).loc main_arg1))) (Cert.Gcn.dst (m ((c : Thread nD τ).loc main_arg1)))) := by
  show StableHlo.after hostOps2 (W4 m ρ c) (Proc.devRef .tc main_v25) = _
  dsimp only [hostOps2]
  after_results_simp
  exact f4_v25 m ρ c

theorem f5_v26 : W5 m ρ c (Proc.devRef .tc main_v26) = (Cert.Gcn.selfC (Cert.Gcn.dst (m ((c : Thread nD τ).loc main_arg1)))) := by
  show StableHlo.after hostOps2 (W4 m ρ c) (Proc.devRef .tc main_v26) = _
  dsimp only [hostOps2]
  after_results_simp
  exact f4_v26 m ρ c

theorem f5_arg7 : W5 m ρ c (Proc.devRef .tc main_arg7) = (m ((c : Thread nD τ).loc main_arg7)) := by
  show StableHlo.after hostOps2 (W4 m ρ c) (Proc.devRef .tc main_arg7) = _
  dsimp only [hostOps2]
  after_results_simp
  exact f4_arg7 m ρ c

theorem f6_v59 : W6 m ρ c (Proc.devRef .tc main_v59) = (Cert.Gcn.proj3 (Cert.Gcn.hidden (Cert.Gcn.src (m ((c : Thread nD τ).loc main_arg1))) (Cert.Gcn.dst (m ((c : Thread nD τ).loc main_arg1))) (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) := by
  refine (W6_arr m ρ c 5).trans ((Cert.KernelIdeal.Hidden2.final (V5 m ρ) c).trans ?_)
  show Cert.KernelIdeal.Hidden2.spec (W5 m ρ c (Proc.devRef .tc main_v56)) (W5 m ρ c (Proc.devRef .tc main_v43)) (W5 m ρ c (Proc.devRef .tc main_v58)) (W5 m ρ c (Proc.devRef .tc main_v57)) (W5 m ρ c (Proc.devRef .tc main_arg6)) = _
  rw [f5_v56 m ρ c, f5_v43 m ρ c, f5_v58 m ρ c, f5_v57 m ρ c, f5_arg6 m ρ c]
  exact Cert.Bridge.hidden2_eq _ _ _ _ _ _ _

theorem f6_v1 : W6 m ρ c (Proc.devRef .tc main_v1) = (Cert.Gcn.src (m ((c : Thread nD τ).loc main_arg1))) := (W6_of_ne m ρ c main_v1 (by decide)).trans (f5_v1 m ρ c)

theorem f6_v3 : W6 m ρ c (Proc.devRef .tc main_v3) = (Cert.Gcn.dst (m ((c : Thread nD τ).loc main_arg1))) := (W6_of_ne m ρ c main_v3 (by decide)).trans (f5_v3 m ρ c)

theorem f6_v25 : W6 m ρ c (Proc.devRef .tc main_v25) = (Cert.Gcn.normE (Cert.Gcn.src (m ((c : Thread nD τ).loc main_arg1))) (Cert.Gcn.dst (m ((c : Thread nD τ).loc main_arg1)))) := (W6_of_ne m ρ c main_v25 (by decide)).trans (f5_v25 m ρ c)

theorem f6_v26 : W6 m ρ c (Proc.devRef .tc main_v26) = (Cert.Gcn.selfC (Cert.Gcn.dst (m ((c : Thread nD τ).loc main_arg1)))) := (W6_of_ne m ρ c main_v26 (by decide)).trans (f5_v26 m ρ c)

theorem f6_arg7 : W6 m ρ c (Proc.devRef .tc main_arg7) = (m ((c : Thread nD τ).loc main_arg7)) := (W6_of_ne m ρ c main_arg7 (by decide)).trans (f5_arg7 m ρ c)

theorem f7_v72 : W7 m ρ c (Proc.devRef .tc main_v72) = (Cert.Gcn.agg8 (Cert.Gcn.src (m ((c : Thread nD τ).loc main_arg1))) (Cert.Gcn.dst (m ((c : Thread nD τ).loc main_arg1))) (Cert.Gcn.normE (Cert.Gcn.src (m ((c : Thread nD τ).loc main_arg1))) (Cert.Gcn.dst (m ((c : Thread nD τ).loc main_arg1)))) (Cert.Gcn.proj3 (Cert.Gcn.hidden (Cert.Gcn.src (m ((c : Thread nD τ).loc main_arg1))) (Cert.Gcn.dst (m ((c : Thread nD τ).loc main_arg1))) (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6)))) := by
  show StableHlo.after hostOps3 (W6 m ρ c) (Proc.devRef .tc main_v72) = _
  dsimp only [hostOps3]
  after_results_simp
  simp only [f6_v1 m ρ c, f6_v3 m ρ c, f6_v25 m ρ c, f6_v59 m ρ c]
  rfl

theorem f7_v73 : W7 m ρ c (Proc.devRef .tc main_v73) = (shapeCast S1x8 (m ((c : Thread nD τ).loc main_arg7)) shapeCasts_S8_S1x8) := by
  show StableHlo.after hostOps3 (W6 m ρ c) (Proc.devRef .tc main_v73) = _
  dsimp only [hostOps3]
  after_results_simp
  simp only [f6_arg7 m ρ c]
  rfl

theorem f7_v74 : W7 m ρ c (Proc.devRef .tc main_v74) = (shapeCast S100000x1 (Cert.Gcn.selfC (Cert.Gcn.dst (m ((c : Thread nD τ).loc main_arg1)))) shapeCasts_S100000_S100000x1) := by
  show StableHlo.after hostOps3 (W6 m ρ c) (Proc.devRef .tc main_v74) = _
  dsimp only [hostOps3]
  after_results_simp
  simp only [f6_v26 m ρ c]
  rfl

theorem f7_v59 : W7 m ρ c (Proc.devRef .tc main_v59) = (Cert.Gcn.proj3 (Cert.Gcn.hidden (Cert.Gcn.src (m ((c : Thread nD τ).loc main_arg1))) (Cert.Gcn.dst (m ((c : Thread nD τ).loc main_arg1))) (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) := by
  show StableHlo.after hostOps3 (W6 m ρ c) (Proc.devRef .tc main_v59) = _
  dsimp only [hostOps3]
  after_results_simp
  exact f6_v59 m ρ c

theorem f8_v75 : W8 m ρ c (Proc.devRef .tc main_v75) = (Cert.Gcn.output (Cert.Gcn.src (m ((c : Thread nD τ).loc main_arg1))) (Cert.Gcn.dst (m ((c : Thread nD τ).loc main_arg1))) (Cert.Gcn.proj3 (Cert.Gcn.hidden (Cert.Gcn.src (m ((c : Thread nD τ).loc main_arg1))) (Cert.Gcn.dst (m ((c : Thread nD τ).loc main_arg1))) (Cert.Gcn.proj2 (Cert.Gcn.hidden (Cert.Gcn.src (m ((c : Thread nD τ).loc main_arg1))) (Cert.Gcn.dst (m ((c : Thread nD τ).loc main_arg1))) (Cert.Gcn.proj1 (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) := by
  refine (W8_arr m ρ c 4).trans ((Cert.KernelIdeal.Output.final (V7 m ρ) c).trans ?_)
  show Cert.KernelIdeal.Output.spec (W7 m ρ c (Proc.devRef .tc main_v72)) (W7 m ρ c (Proc.devRef .tc main_v59)) (W7 m ρ c (Proc.devRef .tc main_v74)) (W7 m ρ c (Proc.devRef .tc main_v73)) = _
  rw [f7_v72 m ρ c, f7_v59 m ρ c, f7_v74 m ρ c, f7_v73 m ρ c]
  exact Cert.Bridge.output_eq _ _ _ _ _ _

/-- At the last boundary the result buffer holds the network's function of the eight argument arrays. -/
theorem result : W8 m ρ c (Proc.devRef .tc main_v75)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := f8_v75 m ρ c

end Cert.KernelIdeal.Value

end
-- ==== Proof.LibTypedRead.lean ====
/-
  Reading a valuation at a typed reference, with no transport left behind.

  A host operation of a module-local function names its operands and its result by typed references: a buffer together
  with the value type its contents have. The operation's function works on values of those types, and the buffer's own
  contents type is reached by a transport along the equation between the two (the identity, once the types are
  computed). Reading the result of a line of such operations buffer by buffer leaves a pair of transports at every
  producer–consumer edge. Here the contents of a buffer are read AT THE VALUE TYPE (`get`): then every edge's pair is
  cancelled where it arises, by lemmas proved once for arbitrary typed references, and the terms that come out are the
  operations' functions applied to one another and nothing else.

      get y ((unary x y f).result V) = f (get x V)              get z ((unary x y f).result V) = get z V   (z ≠ y)

  and the same for operations of no, two and three operands and for a reshape. `get_after` reads a whole line.
-/
import Idealize.ShloMosaic.Lib.StableHlo.Run

noncomputable section

namespace Cert.LibTypedRead

open Idealize.ShloMosaic Idealize.ShloMosaic.StableHlo

variable {τ : Topo} {sig : RefSig} {Val : EltTy → Type}
variable {T Tx Ta Tb Tc Ty : BufTy}

/-- The contents of a typed reference's buffer, at the reference's value type. -/
def get (x : TRef sig T) (V : Valuation τ sig Val) : T.Contents Val :=
  x.ofBuf (V (Proc.devRef .tc x.ref))

/-- To the buffer's type and back is the identity … -/
theorem ofBuf_toBuf (x : TRef sig T) (v : T.Contents Val) : x.ofBuf (x.toBuf v) = v := by
  obtain ⟨r, h, hd, hu⟩ := x
  subst h
  rfl

/-- … and so is back and forth. -/
theorem toBuf_ofBuf (x : TRef sig T) (v : x.ref.ty.Contents Val) : x.toBuf (x.ofBuf v) = v := by
  obtain ⟨r, h, hd, hu⟩ := x
  subst h
  rfl

/-- A buffer's contents from its typed reading. -/
theorem eq_toBuf_of_get (x : TRef sig T) (V : Valuation τ sig Val) (v : T.Contents Val) (h : get x V = v) :
    V (Proc.devRef .tc x.ref) = x.toBuf v := by
  rw [← h]; exact (toBuf_ofBuf x _).symm

/-! ## The written buffer -/

theorem get_nullary (y : TRef sig Ty) (v : Ty.Contents Val) (V : Valuation τ sig Val) :
    get y ((TRef.nullary y v : HloOp τ sig Val).result V) = v := by
  unfold get TRef.nullary
  rw [nullary_result]
  exact ofBuf_toBuf y v

theorem get_unary (x : TRef sig Tx) (y : TRef sig Ty) (f : Tx.Contents Val → Ty.Contents Val) (V : Valuation τ sig Val) :
    get y ((TRef.unary x y f : HloOp τ sig Val).result V) = f (get x V) := by
  unfold get TRef.unary
  rw [unary_result]
  exact ofBuf_toBuf y _

theorem get_binary (a : TRef sig Ta) (b : TRef sig Tb) (y : TRef sig Ty)
    (f : Ta.Contents Val → Tb.Contents Val → Ty.Contents Val) (V : Valuation τ sig Val) :
    get y ((TRef.binary a b y f : HloOp τ sig Val).result V) = f (get a V) (get b V) := by
  unfold get TRef.binary
  rw [binary_result]
  exact ofBuf_toBuf y _

theorem get_ternary (c : TRef sig Tc) (a : TRef sig Ta) (b : TRef sig Tb) (y : TRef sig Ty)
    (f : Tc.Contents Val → Ta.Contents Val → Tb.Contents Val → Ty.Contents Val) (V : Valuation τ sig Val) :
    get y ((TRef.ternary c a b y f : HloOp τ sig Val).result V) = f (get c V) (get a V) (get b V) := by
  unfold get TRef.ternary
  rw [ternary_result]
  exact ofBuf_toBuf y _

theorem get_reshape (x : TRef sig Tx) (y : TRef sig Ty) (he : Tx.elt = Ty.elt) (hn : Tx.shape.ShapeCasts Ty.shape)
    (V : Valuation τ sig Val) :
    get y ((TRef.reshape x y he hn : HloOp τ sig Val).result V) = fun i => he ▸ shapeCast Ty.shape (get x V) hn i := by
  obtain ⟨xr, hx, hxd, hxu⟩ := x
  obtain ⟨yr, hy, hyd, hyu⟩ := y
  subst hx hy
  unfold get TRef.reshape
  rw [reshape_result]
  rfl

/-! ## Any other buffer -/

theorem get_nullary_ne (z : TRef sig T) (y : TRef sig Ty) (v : Ty.Contents Val) (V : Valuation τ sig Val) (h : z.ref ≠ y.ref) :
    get z ((TRef.nullary y v : HloOp τ sig Val).result V) = get z V := by
  unfold get TRef.nullary
  exact congrArg _ (nullary_result_ne _ _ _ _ h)

theorem get_unary_ne (z : TRef sig T) (x : TRef sig Tx) (y : TRef sig Ty) (f : Tx.Contents Val → Ty.Contents Val)
    (V : Valuation τ sig Val) (h : z.ref ≠ y.ref) :
    get z ((TRef.unary x y f : HloOp τ sig Val).result V) = get z V := by
  unfold get TRef.unary
  exact congrArg _ (unary_result_ne _ _ _ _ _ _ h)

theorem get_binary_ne (z : TRef sig T) (a : TRef sig Ta) (b : TRef sig Tb) (y : TRef sig Ty)
    (f : Ta.Contents Val → Tb.Contents Val → Ty.Contents Val) (V : Valuation τ sig Val) (h : z.ref ≠ y.ref) :
    get z ((TRef.binary a b y f : HloOp τ sig Val).result V) = get z V := by
  unfold get TRef.binary
  exact congrArg _ (binary_result_ne _ _ _ _ _ _ _ _ h)

theorem get_ternary_ne (z : TRef sig T) (c : TRef sig Tc) (a : TRef sig Ta) (b : TRef sig Tb) (y : TRef sig Ty)
    (f : Tc.Contents Val → Ta.Contents Val → Tb.Contents Val → Ty.Contents Val) (V : Valuation τ sig Val) (h : z.ref ≠ y.ref) :
    get z ((TRef.ternary c a b y f : HloOp τ sig Val).result V) = get z V := by
  unfold get TRef.ternary
  exact congrArg _ (ternary_result_ne _ _ _ _ _ _ _ _ _ _ h)

theorem get_reshape_ne (z : TRef sig T) (x : TRef sig Tx) (y : TRef sig Ty) (he : Tx.elt = Ty.elt)
    (hn : Tx.shape.ShapeCasts Ty.shape) (V : Valuation τ sig Val) (h : z.ref ≠ y.ref) :
    get z ((TRef.reshape x y he hn : HloOp τ sig Val).result V) = get z V := by
  unfold get TRef.reshape
  exact congrArg _ (reshape_result_ne _ _ _ _ _ _ _ h)

/-! ## A line of operations -/

theorem get_after_nil (z : TRef sig T) (V : Valuation τ sig Val) : get z (after [] V) = get z V := rfl

theorem get_after_cons (z : TRef sig T) (op : HloOp τ sig Val) (ops : List (HloOp τ sig Val)) (V : Valuation τ sig Val) :
    get z (after (op :: ops) V) = get z (after ops (op.result V)) := rfl

end Cert.LibTypedRead

end
-- ==== Proof.RefRun.lean ====
/-
  The reference's run, read in four stretches.

  The reference's @main is a straight line of 127 host operations. What a buffer holds after the line is the fold of the
  operations' results from the launch contents; read in one piece, the result's term repeats every layer's projected
  features twice per layer above it. So the line is cut where the network's layers end — after the edge weights
  (34 operations), after each hidden layer's rectifier (27 and 27), the rest (39) — and each stretch is read on its own, from
  ANY contents `V` at its start: the stretch's one new array as a stage function (Proof/GcnStages.lean) of the arrays it
  reads, and every array a later stretch still needs unchanged. Chained, the result buffer holds `Gcn.net` of the eight
  argument arrays.

  Three of the stretches end in the operations of a called function (`relu`, `log_softmax`), whose operands are typed
  references: reading through them leaves "to the buffer's type and back" pairs, cancelled by the one lemma that they are
  the identity.
-/
import proofs.«119566_j23124103922098_1_alg».proof.Proof.RefOps
import proofs.«119566_j23124103922098_1_alg».proof.Proof.LibTypedRead
import proofs.«119566_j23124103922098_1_alg».proof.Proof.GcnStages

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## Cutting a line -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_take_drop (n : ℕ) (l : List (HloOp τ sig (Elt F))) (V : Valuation τ sig (Elt F)) :
    after l V = after (l.drop n) (after (l.take n) V) := by
  rw [← after_append, List.take_append_drop]

/-- The edge weights: operations 0 … 33. -/
abbrev lineA : List (HloOp τ sig (Elt F)) := ops.take 34
/-- The first layer: operations 34 … 60. -/
abbrev lineB : List (HloOp τ sig (Elt F)) := (ops.drop 34).take 27
/-- The second layer: operations 61 … 87. -/
abbrev lineC : List (HloOp τ sig (Elt F)) := ((ops.drop 34).drop 27).take 27
/-- The third layer and the log-softmax: operations 88 … 126. -/
abbrev lineD : List (HloOp τ sig (Elt F)) := ((ops.drop 34).drop 27).drop 27

theorem after_ops (V : Valuation τ sig (Elt F)) :
    after ops V = after lineD (after lineC (after lineB (after lineA V))) := by
  rw [after_take_drop 34 ops V, after_take_drop 27 (ops.drop 34), after_take_drop 27 ((ops.drop 34).drop 27)]

/-- Read one buffer after a stretch: the stretch as a literal list, then each operation's result at its own buffer and
    the earlier contents at any other. -/
macro "read_line" : tactic =>
  `(tactic| (simp only [lineA, lineB, lineC, lineD, ops, List.drop_succ_cons, List.drop_zero, List.take_succ_cons, List.take_zero]
             after_results_simp))

/-! ## The edge weights -/

theorem A_v1 (V : Valuation τ sig (Elt F)) : after lineA V (Proc.devRef .tc main_v1) = Gcn.src (V (Proc.devRef .tc main_arg1)) := by
  read_line <;> rfl
theorem A_v3 (V : Valuation τ sig (Elt F)) : after lineA V (Proc.devRef .tc main_v3) = Gcn.dst (V (Proc.devRef .tc main_arg1)) := by
  read_line <;> rfl
theorem A_v25 (V : Valuation τ sig (Elt F)) :
    after lineA V (Proc.devRef .tc main_v25) = Gcn.normE (Gcn.src (V (Proc.devRef .tc main_arg1))) (Gcn.dst (V (Proc.devRef .tc main_arg1))) := by
  read_line <;> rfl
theorem A_v26 (V : Valuation τ sig (Elt F)) : after lineA V (Proc.devRef .tc main_v26) = Gcn.selfC (Gcn.dst (V (Proc.devRef .tc main_arg1))) := by
  read_line <;> rfl
theorem A_arg0 (V : Valuation τ sig (Elt F)) : after lineA V (Proc.devRef .tc main_arg0) = V (Proc.devRef .tc main_arg0) := by
  read_line <;> rfl
theorem A_arg2 (V : Valuation τ sig (Elt F)) : after lineA V (Proc.devRef .tc main_arg2) = V (Proc.devRef .tc main_arg2) := by
  read_line <;> rfl
theorem A_arg3 (V : Valuation τ sig (Elt F)) : after lineA V (Proc.devRef .tc main_arg3) = V (Proc.devRef .tc main_arg3) := by
  read_line <;> rfl
theorem A_arg4 (V : Valuation τ sig (Elt F)) : after lineA V (Proc.devRef .tc main_arg4) = V (Proc.devRef .tc main_arg4) := by
  read_line <;> rfl
theorem A_arg5 (V : Valuation τ sig (Elt F)) : after lineA V (Proc.devRef .tc main_arg5) = V (Proc.devRef .tc main_arg5) := by
  read_line <;> rfl
theorem A_arg6 (V : Valuation τ sig (Elt F)) : after lineA V (Proc.devRef .tc main_arg6) = V (Proc.devRef .tc main_arg6) := by
  read_line <;> rfl
theorem A_arg7 (V : Valuation τ sig (Elt F)) : after lineA V (Proc.devRef .tc main_arg7) = V (Proc.devRef .tc main_arg7) := by
  read_line <;> rfl

/-! ## The first layer -/

theorem B_v48 (V : Valuation τ sig (Elt F)) :
    after lineB V (Proc.devRef .tc main_v48)
      = Gcn.relu16 (Gcn.conv16 (Gcn.agg16 (V (Proc.devRef .tc main_v1)) (V (Proc.devRef .tc main_v3)) (V (Proc.devRef .tc main_v25)) (Gcn.proj1 (V (Proc.devRef .tc main_arg0)) (V (Proc.devRef .tc main_arg2))))
          (Gcn.proj1 (V (Proc.devRef .tc main_arg0)) (V (Proc.devRef .tc main_arg2))) (V (Proc.devRef .tc main_v26)) (V (Proc.devRef .tc main_arg3))) := by
  read_line
  simp only [Cert.LibTypedRead.ofBuf_toBuf]
  rfl
theorem B_v1 (V : Valuation τ sig (Elt F)) : after lineB V (Proc.devRef .tc main_v1) = V (Proc.devRef .tc main_v1) := by
  read_line <;> rfl
theorem B_v3 (V : Valuation τ sig (Elt F)) : after lineB V (Proc.devRef .tc main_v3) = V (Proc.devRef .tc main_v3) := by
  read_line <;> rfl
theorem B_v25 (V : Valuation τ sig (Elt F)) : after lineB V (Proc.devRef .tc main_v25) = V (Proc.devRef .tc main_v25) := by
  read_line <;> rfl
theorem B_v26 (V : Valuation τ sig (Elt F)) : after lineB V (Proc.devRef .tc main_v26) = V (Proc.devRef .tc main_v26) := by
  read_line <;> rfl
theorem B_arg4 (V : Valuation τ sig (Elt F)) : after lineB V (Proc.devRef .tc main_arg4) = V (Proc.devRef .tc main_arg4) := by
  read_line <;> rfl
theorem B_arg5 (V : Valuation τ sig (Elt F)) : after lineB V (Proc.devRef .tc main_arg5) = V (Proc.devRef .tc main_arg5) := by
  read_line <;> rfl
theorem B_arg6 (V : Valuation τ sig (Elt F)) : after lineB V (Proc.devRef .tc main_arg6) = V (Proc.devRef .tc main_arg6) := by
  read_line <;> rfl
theorem B_arg7 (V : Valuation τ sig (Elt F)) : after lineB V (Proc.devRef .tc main_arg7) = V (Proc.devRef .tc main_arg7) := by
  read_line <;> rfl

/-! ## The second layer -/

theorem C_v70 (V : Valuation τ sig (Elt F)) :
    after lineC V (Proc.devRef .tc main_v70)
      = Gcn.relu16 (Gcn.conv16 (Gcn.agg16 (V (Proc.devRef .tc main_v1)) (V (Proc.devRef .tc main_v3)) (V (Proc.devRef .tc main_v25)) (Gcn.proj2 (V (Proc.devRef .tc main_v48)) (V (Proc.devRef .tc main_arg4))))
          (Gcn.proj2 (V (Proc.devRef .tc main_v48)) (V (Proc.devRef .tc main_arg4))) (V (Proc.devRef .tc main_v26)) (V (Proc.devRef .tc main_arg5))) := by
  read_line
  simp only [Cert.LibTypedRead.ofBuf_toBuf]
  rfl
theorem C_v1 (V : Valuation τ sig (Elt F)) : after lineC V (Proc.devRef .tc main_v1) = V (Proc.devRef .tc main_v1) := by
  read_line <;> rfl
theorem C_v3 (V : Valuation τ sig (Elt F)) : after lineC V (Proc.devRef .tc main_v3) = V (Proc.devRef .tc main_v3) := by
  read_line <;> rfl
theorem C_v25 (V : Valuation τ sig (Elt F)) : after lineC V (Proc.devRef .tc main_v25) = V (Proc.devRef .tc main_v25) := by
  read_line <;> rfl
theorem C_v26 (V : Valuation τ sig (Elt F)) : after lineC V (Proc.devRef .tc main_v26) = V (Proc.devRef .tc main_v26) := by
  read_line <;> rfl
theorem C_arg6 (V : Valuation τ sig (Elt F)) : after lineC V (Proc.devRef .tc main_arg6) = V (Proc.devRef .tc main_arg6) := by
  read_line <;> rfl
theorem C_arg7 (V : Valuation τ sig (Elt F)) : after lineC V (Proc.devRef .tc main_arg7) = V (Proc.devRef .tc main_arg7) := by
  read_line <;> rfl

/-! ## The third layer and the log-softmax -/

theorem D_v92 (V : Valuation τ sig (Elt F)) :
    after lineD V (Proc.devRef .tc main_v92)
      = Gcn.logSoftmax8 (Gcn.conv8 (Gcn.agg8 (V (Proc.devRef .tc main_v1)) (V (Proc.devRef .tc main_v3)) (V (Proc.devRef .tc main_v25)) (Gcn.proj3 (V (Proc.devRef .tc main_v70)) (V (Proc.devRef .tc main_arg6))))
          (Gcn.proj3 (V (Proc.devRef .tc main_v70)) (V (Proc.devRef .tc main_arg6))) (V (Proc.devRef .tc main_v26)) (V (Proc.devRef .tc main_arg7))) := by
  read_line
  simp only [Cert.LibTypedRead.ofBuf_toBuf]
  rfl

/-! ## The whole line -/

/-- After the whole line the result buffer holds the network's function of the eight argument arrays. -/
theorem value (V : Valuation τ sig (Elt F)) :
    after ops V (Proc.devRef .tc main_v92)
      = Gcn.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops, D_v92]
  rw [C_v70, C_v1, C_v3, C_v25, C_v26, C_arg6, C_arg7]
  rw [B_v48, B_v1, B_v3, B_v25, B_v26, B_arg4, B_arg5, B_arg6, B_arg7]
  rw [A_v1, A_v3, A_v25, A_v26, A_arg0, A_arg2, A_arg3, A_arg4, A_arg5, A_arg6, A_arg7]
  rfl

/-- No operation writes argument 0. -/
theorem kept_arg0 (V : Valuation τ sig (Elt F)) : after ops V (Proc.devRef .tc main_arg0) = V (Proc.devRef .tc main_arg0) := by
  simp only [ops]
  after_results_simp <;> rfl
/-- No operation writes argument 1. -/
theorem kept_arg1 (V : Valuation τ sig (Elt F)) : after ops V (Proc.devRef .tc main_arg1) = V (Proc.devRef .tc main_arg1) := by
  simp only [ops]
  after_results_simp <;> rfl
/-- No operation writes argument 2. -/
theorem kept_arg2 (V : Valuation τ sig (Elt F)) : after ops V (Proc.devRef .tc main_arg2) = V (Proc.devRef .tc main_arg2) := by
  simp only [ops]
  after_results_simp <;> rfl
/-- No operation writes argument 3. -/
theorem kept_arg3 (V : Valuation τ sig (Elt F)) : after ops V (Proc.devRef .tc main_arg3) = V (Proc.devRef .tc main_arg3) := by
  simp only [ops]
  after_results_simp <;> rfl
/-- No operation writes argument 4. -/
theorem kept_arg4 (V : Valuation τ sig (Elt F)) : after ops V (Proc.devRef .tc main_arg4) = V (Proc.devRef .tc main_arg4) := by
  simp only [ops]
  after_results_simp <;> rfl
/-- No operation writes argument 5. -/
theorem kept_arg5 (V : Valuation τ sig (Elt F)) : after ops V (Proc.devRef .tc main_arg5) = V (Proc.devRef .tc main_arg5) := by
  simp only [ops]
  after_results_simp <;> rfl
/-- No operation writes argument 6. -/
theorem kept_arg6 (V : Valuation τ sig (Elt F)) : after ops V (Proc.devRef .tc main_arg6) = V (Proc.devRef .tc main_arg6) := by
  simp only [ops]
  after_results_simp <;> rfl
/-- No operation writes argument 7. -/
theorem kept_arg7 (V : Valuation τ sig (Elt F)) : after ops V (Proc.devRef .tc main_arg7) = V (Proc.devRef .tc main_arg7) := by
  simp only [ops]
  after_results_simp <;> rfl

/-! ## The run -/

/-- Every weakly fair execution of the reference terminates, nothing faulting, with the result at the network's function of
    the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
        = Gcn.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v92).trans (value _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _)⟩)
    (run_seq scopedRefs_eq scopedSems_eq defs main (fun _ => ops) main_eq (fun _ => ops_sub) m ρ)

end Cert.ReferenceIdeal.RefRun

end
-- ==== Proof.lean ====
/-
  A three-layer graph convolution with a log-softmax read-out, computed by four pipelined kernels among host
  operations, against the same network written entirely on the host: the two idealized programs return the same array.

  Both programs derive from the edge array the same per-edge and per-node weights and aggregate each layer's projected
  features over the edges by the same gather, scale and scatter-add. They differ in who does the dense work. The
  reference computes each layer's projection x·W, its epilogue agg + self·xw + b, the rectifier and the final
  log-softmax as host operations on whole arrays; the kernel program computes the first projection in one kernel, fuses each
  hidden layer's epilogue and rectifier with the NEXT layer's projection in a second and a third, and fuses the last
  epilogue with the log-softmax in a fourth — each kernel working on 5000 of the 100000 rows at a time.

  Every one of those computations is row-local: an entry of row r of a result reads row r of the row-blocked operands
  and the (small) weights and bias whole. So a kernel's twenty blocks are restrictions of one function of whole arrays
  (Proof/Region*.lean), which is, entry by entry and over all extended reals, the host's spelling of the same layer
  (Proof/Bridge.lean over Proof/LibGcnEpilogue.lean and Proof/LibGcnHost.lean) — no sum is re-associated across blocks and
  no finiteness is needed. With the shared gather/scatter chains carried as opaque stage functions (Proof/GcnStages.lean),
  the kernel program's result (Proof/KernelRun.lean, Proof/KernelValue.lean) and the reference's (Proof/RefRun.lean) are
  both `Gcn.net` of the eight argument arrays.

  The frames: the two kernel programs' are the generated ones; the reference's is its run with the result dropped. The
  idealization rewrote nothing, so `preserves` is trivial.
-/
import proofs.«119566_j23124103922098_1_alg».proof.Defs
import proofs.«119566_j23124103922098_1_alg».proof.Proof.Gen.Kernel
import proofs.«119566_j23124103922098_1_alg».proof.Proof.Gen.Kernel.Frame
import proofs.«119566_j23124103922098_1_alg».proof.Proof.Gen.KernelIdeal
import proofs.«119566_j23124103922098_1_alg».proof.Proof.Gen.KernelIdeal.Frame
import proofs.«119566_j23124103922098_1_alg».proof.Proof.Gen.ReferenceIdeal
import proofs.«119566_j23124103922098_1_alg».proof.Proof.Gen.Pre_finite_inputs
import proofs.«119566_j23124103922098_1_alg».proof.Proof.KernelRun
import proofs.«119566_j23124103922098_1_alg».proof.Proof.KernelValue
import proofs.«119566_j23124103922098_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with the network's function of the argument arrays in their result, and the arguments
    agree. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result m ρ c), (h c).2⟩) (Cert.KernelIdeal.Named.run m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
